-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000x128 : Shape := ⟨2, ![5000, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S1x10 : Shape := ⟨2, ![1, 10]⟩
abbrev S512x10 : Shape := ⟨2, ![512, 10]⟩

abbrev nBuf : Space → Nat
  | .hbm => 143
  | .vmem => 28
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x10, .f32⟩
  | 12 => ⟨S10, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .f32⟩
  | 80 => ⟨S1700000x1, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x128, .f32⟩
  | 98 => ⟨S1700000x1, .f32⟩
  | 99 => ⟨S1700000x128, .f32⟩
  | 100 => ⟨S1700000x128, .f32⟩
  | 101 => ⟨S_, .f32⟩
  | 102 => ⟨S100000x128, .f32⟩
  | 103 => ⟨S1700000x1, .i32⟩
  | 104 => ⟨S100000x128, .f32⟩
  | 105 => ⟨S1x128, .f32⟩
  | 106 => ⟨S100000x128, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S512, .f32⟩
  | 1 => ⟨S100000x1, .i32⟩
  | 2 => ⟨S512, .f32⟩
  | 3 => ⟨S_, .f32⟩
  | 4 => ⟨S512x128, .f32⟩
  | 5 => ⟨S100000x1, .i32⟩
  | 6 => ⟨S512x128, .f32⟩
  | 7 => ⟨S_, .f32⟩
  | 8 => ⟨S512, .f32⟩
  | 9 => ⟨S512, .f32⟩
  | 10 => ⟨S512x1, .f32⟩
  | 11 => ⟨S512x128, .f32⟩
  | 12 => ⟨S512x128, .f32⟩
  | 13 => ⟨S1x10, .f32⟩
  | 14 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S512x128, .f32⟩
  | .local _ .vmem, ⟨25, _⟩ => ⟨S128x10, .f32⟩
  | .local _ .vmem, ⟨26, _⟩ => ⟨S1x10, .f32⟩
  | .local _ .vmem, ⟨27, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_15 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x10.size a ≤ S512x10.size a
  hwx4_3 : ∀ i : grid4.Coords, EltTy.bits .f32 = 32 ∨ (Rect.block (s := S512x10) S512x10.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v87) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v101) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v103) S512x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 222
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x10, .f32⟩
  | 12 => ⟨S10, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S100000x128, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000, .f32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x128, .f32⟩
  | 19 => ⟨S1700000x1, .f32⟩
  | 20 => ⟨S1700000x128, .f32⟩
  | 21 => ⟨S1700000x128, .f32⟩
  | 22 => ⟨S_, .f32⟩
  | 23 => ⟨S100000x128, .f32⟩
  | 24 => ⟨S1700000x1, .i32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .f32⟩
  | 75 => ⟨S100000, .f32⟩
  | 76 => ⟨S_, .f32⟩
  | 77 => ⟨S512, .f32⟩
  | 78 => ⟨S100000x1, .i32⟩
  | 79 => ⟨S512, .f32⟩
  | 80 => ⟨S_, .f32⟩
  | 81 => ⟨S512x128, .f32⟩
  | 82 => ⟨S100000x1, .i32⟩
  | 83 => ⟨S512x128, .f32⟩
  | 84 => ⟨S_, .f32⟩
  | 85 => ⟨S512, .f32⟩
  | 86 => ⟨S512, .f32⟩
  | 87 => ⟨S512x1, .f32⟩
  | 88 => ⟨S512x128, .f32⟩
  | 89 => ⟨S512x128, .f32⟩
  | 90 => ⟨S512x10, .f32⟩
  | 91 => ⟨S1x10, .f32⟩
  | 92 => ⟨S512x10, .f32⟩
  | 93 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call2_cst : Ref sig .tc := ⟨.hbm, 115, rfl⟩
abbrev main_call2_v0 : Ref sig .tc := ⟨.hbm, 116, rfl⟩
abbrev main_v80 : Ref sig .tc := ⟨.hbm, 117, rfl⟩
abbrev main_v81 : Ref sig .tc := ⟨.hbm, 118, rfl⟩
abbrev main_c_16 : Ref sig .tc := ⟨.hbm, 119, rfl⟩
abbrev main_v82 : Ref sig .tc := ⟨.hbm, 120, rfl⟩
abbrev main_v83 : Ref sig .tc := ⟨.hbm, 121, rfl⟩
abbrev main_c_17 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_18 : Ref sig .tc := ⟨.hbm, 128, rfl⟩
abbrev main_v89 : Ref sig .tc := ⟨.hbm, 129, rfl⟩
abbrev main_v90 : Ref sig .tc := ⟨.hbm, 130, rfl⟩
abbrev main_c_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_20 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_call3_cst : Ref sig .tc := ⟨.hbm, 157, rfl⟩
abbrev main_call3_v0 : Ref sig .tc := ⟨.hbm, 158, rfl⟩
abbrev main_v113 : Ref sig .tc := ⟨.hbm, 159, rfl⟩
abbrev main_v114 : Ref sig .tc := ⟨.hbm, 160, rfl⟩
abbrev main_c_23 : Ref sig .tc := ⟨.hbm, 161, rfl⟩
abbrev main_v115 : Ref sig .tc := ⟨.hbm, 162, rfl⟩
abbrev main_v116 : Ref sig .tc := ⟨.hbm, 163, rfl⟩
abbrev main_c_24 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_c_25 : Ref sig .tc := ⟨.hbm, 170, rfl⟩
abbrev main_v122 : Ref sig .tc := ⟨.hbm, 171, rfl⟩
abbrev main_v123 : Ref sig .tc := ⟨.hbm, 172, rfl⟩
abbrev main_c_26 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_c_27 : Ref sig .tc := ⟨.hbm, 180, rfl⟩
abbrev main_v130 : Ref sig .tc := ⟨.hbm, 181, rfl⟩
abbrev main_v131 : Ref sig .tc := ⟨.hbm, 182, rfl⟩
abbrev main_c_28 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_29 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_call4_cst : Ref sig .tc := ⟨.hbm, 199, rfl⟩
abbrev main_call4_v0 : Ref sig .tc := ⟨.hbm, 200, rfl⟩
abbrev main_v146 : Ref sig .tc := ⟨.hbm, 201, rfl⟩
abbrev main_cst_30 : Ref sig .tc := ⟨.hbm, 202, rfl⟩
abbrev main_v147 : Ref sig .tc := ⟨.hbm, 203, rfl⟩
abbrev main_cst_31 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_32 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_33 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.KRun.lean ====
/-
  The idealized kernel program's run with its two results named.

  Every weakly fair execution of the program terminates without a fault; when it ends, each buffer that is not scoped
  to a region holds what the fold of the program's segments leaves in it: the host operations' results between the
  regions, and each region's arrays as its write-backs leave them.  The two result buffers are read off that fold
  here, beside the argument arrays, which end as launched.
-/
import proofs.«134745_j64080912056838_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run_results : θ_run defs (onTc (τ := τ) (main (F := F))) ⟨m, fun _ => 0, ρ⟩ (fun r => ∀ c : Dev nD,
      r.2.mem ((c.tc : Thread nD τ).loc main_v103) = W12 m ρ c (Proc.devRef .tc main_v103)
      ∧ r.2.mem ((c.tc : Thread nD τ).loc main_v101) = W12 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v103 (by decide)), h c _ (mem_uc main_v101 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Run

end
-- ==== Proof.KCarry.lean ====
/-
  Buffers the kernel program leaves alone.

  The edge data (source words, destination words, edge weights) are computed once, before the first region, and the
  matrices, biases and graph words are arguments; no later host operation writes any of them and no region has one of
  them as an output, so at every later boundary of the program each still holds what it held when the first region
  was entered — and an argument holds what it was launched with.
-/
import proofs.«134745_j64080912056838_1_alg».proof.Proof.Gen.KernelIdeal.Frame
import Idealize.ShloMosaic.Lib.StableHlo.Run
import Idealize.ShloMosaic.PureOps.Ideal

set_option maxRecDepth 16384

noncomputable section

namespace Cert.KernelIdeal.Carry

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem base_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem base_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem base_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results
theorem base_main_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results
theorem base_main_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results
theorem base_main_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results
theorem base_main_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results
theorem base_main_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results
theorem base_main_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results
theorem base_main_arg12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results

theorem keep4_main_v3 : W4 m ρ c (Proc.devRef .tc main_v3) = W3 m ρ c (Proc.devRef .tc main_v3) := W4_of_ne m ρ c main_v3 (by decide)
theorem keep6_main_v3 : W6 m ρ c (Proc.devRef .tc main_v3) = W3 m ρ c (Proc.devRef .tc main_v3) :=
  (W6_of_ne m ρ c main_v3 (by decide)).trans ((show StableHlo.after hostOps1 (W4 m ρ c) (Proc.devRef .tc main_v3) = W4 m ρ c (Proc.devRef .tc main_v3) by after_results).trans (keep4_main_v3 m ρ c))
theorem keep8_main_v3 : W8 m ρ c (Proc.devRef .tc main_v3) = W3 m ρ c (Proc.devRef .tc main_v3) :=
  (W8_of_ne m ρ c main_v3 (by decide)).trans ((show StableHlo.after hostOps2 (W6 m ρ c) (Proc.devRef .tc main_v3) = W6 m ρ c (Proc.devRef .tc main_v3) by after_results).trans (keep6_main_v3 m ρ c))
theorem keep4_main_v6 : W4 m ρ c (Proc.devRef .tc main_v6) = W3 m ρ c (Proc.devRef .tc main_v6) := W4_of_ne m ρ c main_v6 (by decide)
theorem keep6_main_v6 : W6 m ρ c (Proc.devRef .tc main_v6) = W3 m ρ c (Proc.devRef .tc main_v6) :=
  (W6_of_ne m ρ c main_v6 (by decide)).trans ((show StableHlo.after hostOps1 (W4 m ρ c) (Proc.devRef .tc main_v6) = W4 m ρ c (Proc.devRef .tc main_v6) by after_results).trans (keep4_main_v6 m ρ c))
theorem keep8_main_v6 : W8 m ρ c (Proc.devRef .tc main_v6) = W3 m ρ c (Proc.devRef .tc main_v6) :=
  (W8_of_ne m ρ c main_v6 (by decide)).trans ((show StableHlo.after hostOps2 (W6 m ρ c) (Proc.devRef .tc main_v6) = W6 m ρ c (Proc.devRef .tc main_v6) by after_results).trans (keep6_main_v6 m ρ c))
theorem keep4_main_v29 : W4 m ρ c (Proc.devRef .tc main_v29) = W3 m ρ c (Proc.devRef .tc main_v29) := W4_of_ne m ρ c main_v29 (by decide)
theorem keep6_main_v29 : W6 m ρ c (Proc.devRef .tc main_v29) = W3 m ρ c (Proc.devRef .tc main_v29) :=
  (W6_of_ne m ρ c main_v29 (by decide)).trans ((show StableHlo.after hostOps1 (W4 m ρ c) (Proc.devRef .tc main_v29) = W4 m ρ c (Proc.devRef .tc main_v29) by after_results).trans (keep4_main_v29 m ρ c))
theorem keep8_main_v29 : W8 m ρ c (Proc.devRef .tc main_v29) = W3 m ρ c (Proc.devRef .tc main_v29) :=
  (W8_of_ne m ρ c main_v29 (by decide)).trans ((show StableHlo.after hostOps2 (W6 m ρ c) (Proc.devRef .tc main_v29) = W6 m ρ c (Proc.devRef .tc main_v29) by after_results).trans (keep6_main_v29 m ρ c))
theorem keep4_main_arg5 : W4 m ρ c (Proc.devRef .tc main_arg5) = W3 m ρ c (Proc.devRef .tc main_arg5) := W4_of_ne m ρ c main_arg5 (by decide)
theorem keep4_main_arg6 : W4 m ρ c (Proc.devRef .tc main_arg6) = W3 m ρ c (Proc.devRef .tc main_arg6) := W4_of_ne m ρ c main_arg6 (by decide)
theorem keep4_main_arg7 : W4 m ρ c (Proc.devRef .tc main_arg7) = W3 m ρ c (Proc.devRef .tc main_arg7) := W4_of_ne m ρ c main_arg7 (by decide)
theorem keep6_main_arg7 : W6 m ρ c (Proc.devRef .tc main_arg7) = W3 m ρ c (Proc.devRef .tc main_arg7) :=
  (W6_of_ne m ρ c main_arg7 (by decide)).trans ((show StableHlo.after hostOps1 (W4 m ρ c) (Proc.devRef .tc main_arg7) = W4 m ρ c (Proc.devRef .tc main_arg7) by after_results).trans (keep4_main_arg7 m ρ c))
theorem keep4_main_arg8 : W4 m ρ c (Proc.devRef .tc main_arg8) = W3 m ρ c (Proc.devRef .tc main_arg8) := W4_of_ne m ρ c main_arg8 (by decide)
theorem keep6_main_arg8 : W6 m ρ c (Proc.devRef .tc main_arg8) = W3 m ρ c (Proc.devRef .tc main_arg8) :=
  (W6_of_ne m ρ c main_arg8 (by decide)).trans ((show StableHlo.after hostOps1 (W4 m ρ c) (Proc.devRef .tc main_arg8) = W4 m ρ c (Proc.devRef .tc main_arg8) by after_results).trans (keep4_main_arg8 m ρ c))
theorem keep4_main_arg9 : W4 m ρ c (Proc.devRef .tc main_arg9) = W3 m ρ c (Proc.devRef .tc main_arg9) := W4_of_ne m ρ c main_arg9 (by decide)
theorem keep6_main_arg9 : W6 m ρ c (Proc.devRef .tc main_arg9) = W3 m ρ c (Proc.devRef .tc main_arg9) :=
  (W6_of_ne m ρ c main_arg9 (by decide)).trans ((show StableHlo.after hostOps1 (W4 m ρ c) (Proc.devRef .tc main_arg9) = W4 m ρ c (Proc.devRef .tc main_arg9) by after_results).trans (keep4_main_arg9 m ρ c))
theorem keep8_main_arg9 : W8 m ρ c (Proc.devRef .tc main_arg9) = W3 m ρ c (Proc.devRef .tc main_arg9) :=
  (W8_of_ne m ρ c main_arg9 (by decide)).trans ((show StableHlo.after hostOps2 (W6 m ρ c) (Proc.devRef .tc main_arg9) = W6 m ρ c (Proc.devRef .tc main_arg9) by after_results).trans (keep6_main_arg9 m ρ c))
theorem keep4_main_arg10 : W4 m ρ c (Proc.devRef .tc main_arg10) = W3 m ρ c (Proc.devRef .tc main_arg10) := W4_of_ne m ρ c main_arg10 (by decide)
theorem keep6_main_arg10 : W6 m ρ c (Proc.devRef .tc main_arg10) = W3 m ρ c (Proc.devRef .tc main_arg10) :=
  (W6_of_ne m ρ c main_arg10 (by decide)).trans ((show StableHlo.after hostOps1 (W4 m ρ c) (Proc.devRef .tc main_arg10) = W4 m ρ c (Proc.devRef .tc main_arg10) by after_results).trans (keep4_main_arg10 m ρ c))
theorem keep8_main_arg10 : W8 m ρ c (Proc.devRef .tc main_arg10) = W3 m ρ c (Proc.devRef .tc main_arg10) :=
  (W8_of_ne m ρ c main_arg10 (by decide)).trans ((show StableHlo.after hostOps2 (W6 m ρ c) (Proc.devRef .tc main_arg10) = W6 m ρ c (Proc.devRef .tc main_arg10) by after_results).trans (keep6_main_arg10 m ρ c))
theorem keep4_main_arg2 : W4 m ρ c (Proc.devRef .tc main_arg2) = W3 m ρ c (Proc.devRef .tc main_arg2) := W4_of_ne m ρ c main_arg2 (by decide)
theorem keep6_main_arg2 : W6 m ρ c (Proc.devRef .tc main_arg2) = W3 m ρ c (Proc.devRef .tc main_arg2) :=
  (W6_of_ne m ρ c main_arg2 (by decide)).trans ((show StableHlo.after hostOps1 (W4 m ρ c) (Proc.devRef .tc main_arg2) = W4 m ρ c (Proc.devRef .tc main_arg2) by after_results).trans (keep4_main_arg2 m ρ c))
theorem keep8_main_arg2 : W8 m ρ c (Proc.devRef .tc main_arg2) = W3 m ρ c (Proc.devRef .tc main_arg2) :=
  (W8_of_ne m ρ c main_arg2 (by decide)).trans ((show StableHlo.after hostOps2 (W6 m ρ c) (Proc.devRef .tc main_arg2) = W6 m ρ c (Proc.devRef .tc main_arg2) by after_results).trans (keep6_main_arg2 m ρ c))
theorem keep10_main_arg2 : W10 m ρ c (Proc.devRef .tc main_arg2) = W3 m ρ c (Proc.devRef .tc main_arg2) :=
  (W10_of_ne m ρ c main_arg2 (by decide)).trans ((show StableHlo.after hostOps3 (W8 m ρ c) (Proc.devRef .tc main_arg2) = W8 m ρ c (Proc.devRef .tc main_arg2) by after_results).trans (keep8_main_arg2 m ρ c))
theorem keep4_main_arg11 : W4 m ρ c (Proc.devRef .tc main_arg11) = W3 m ρ c (Proc.devRef .tc main_arg11) := W4_of_ne m ρ c main_arg11 (by decide)
theorem keep6_main_arg11 : W6 m ρ c (Proc.devRef .tc main_arg11) = W3 m ρ c (Proc.devRef .tc main_arg11) :=
  (W6_of_ne m ρ c main_arg11 (by decide)).trans ((show StableHlo.after hostOps1 (W4 m ρ c) (Proc.devRef .tc main_arg11) = W4 m ρ c (Proc.devRef .tc main_arg11) by after_results).trans (keep4_main_arg11 m ρ c))
theorem keep8_main_arg11 : W8 m ρ c (Proc.devRef .tc main_arg11) = W3 m ρ c (Proc.devRef .tc main_arg11) :=
  (W8_of_ne m ρ c main_arg11 (by decide)).trans ((show StableHlo.after hostOps2 (W6 m ρ c) (Proc.devRef .tc main_arg11) = W6 m ρ c (Proc.devRef .tc main_arg11) by after_results).trans (keep6_main_arg11 m ρ c))
theorem keep10_main_arg11 : W10 m ρ c (Proc.devRef .tc main_arg11) = W3 m ρ c (Proc.devRef .tc main_arg11) :=
  (W10_of_ne m ρ c main_arg11 (by decide)).trans ((show StableHlo.after hostOps3 (W8 m ρ c) (Proc.devRef .tc main_arg11) = W8 m ρ c (Proc.devRef .tc main_arg11) by after_results).trans (keep8_main_arg11 m ρ c))
theorem keep4_main_arg12 : W4 m ρ c (Proc.devRef .tc main_arg12) = W3 m ρ c (Proc.devRef .tc main_arg12) := W4_of_ne m ρ c main_arg12 (by decide)
theorem keep6_main_arg12 : W6 m ρ c (Proc.devRef .tc main_arg12) = W3 m ρ c (Proc.devRef .tc main_arg12) :=
  (W6_of_ne m ρ c main_arg12 (by decide)).trans ((show StableHlo.after hostOps1 (W4 m ρ c) (Proc.devRef .tc main_arg12) = W4 m ρ c (Proc.devRef .tc main_arg12) by after_results).trans (keep4_main_arg12 m ρ c))
theorem keep8_main_arg12 : W8 m ρ c (Proc.devRef .tc main_arg12) = W3 m ρ c (Proc.devRef .tc main_arg12) :=
  (W8_of_ne m ρ c main_arg12 (by decide)).trans ((show StableHlo.after hostOps2 (W6 m ρ c) (Proc.devRef .tc main_arg12) = W6 m ρ c (Proc.devRef .tc main_arg12) by after_results).trans (keep6_main_arg12 m ρ c))
theorem keep10_main_arg12 : W10 m ρ c (Proc.devRef .tc main_arg12) = W3 m ρ c (Proc.devRef .tc main_arg12) :=
  (W10_of_ne m ρ c main_arg12 (by decide)).trans ((show StableHlo.after hostOps3 (W8 m ρ c) (Proc.devRef .tc main_arg12) = W8 m ρ c (Proc.devRef .tc main_arg12) by after_results).trans (keep8_main_arg12 m ρ c))

end Cert.KernelIdeal.Carry

end
-- ==== Proof.Chain.lean ====
/-
  The pieces both programs are made of, as functions on the extended reals.

  wrapIdx s    : the source words normalised (a negative word shifted up by the node count), one start index per edge;
  spread n     : an edge weight copied along its edge's 128 features;
  nrmOf v s d  : an edge's weight, the product of the node vector v at the edge's two end nodes;
  aggOf h s d n: the weighted neighbourhood sum — row r of the result is the sum, over the edges e whose destination
                 word d e is r, of the source row of h (selected by s e) scaled by the edge's weight n e;
  poolOf h g   : the per-graph mean of the node rows of h, graphs named by the words g, an empty graph's count
                 replaced by one;
  refLayer     : one layer of the reference: multiply by the matrix, aggregate, add the bias, rectify.
-/
import proofs.«134745_j64080912056838_1_alg».proof.ReferenceIdeal
import proofs.«134745_j64080912056838_1_alg».proof.Proof.Gen.ReferenceIdeal
import Idealize.ShloMosaic.PureOps.Ideal

noncomputable section

namespace Cert.Chain

open Cert.ReferenceIdeal Cert.ReferenceIdeal.Facts₀ Cert.ReferenceIdeal.Facts Idealize.ShloMosaic

/-- The start indices of the source rows: a negative word is shifted up by the node count. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- An edge weight copied along the edge's features. -/
def spread (n : FVec Ideal S1700000 .f32) : FVec Ideal S1700000x128 .f32 :=
  broadcastInDim S1700000x128 ![0, 1] bcast_S1700000x1_S1700000x128_0_1
    (broadcastInDim S1700000x1 ![0] bcast_S1700000_S1700000x1_0 n)

/-- An edge's weight: the product of its two end nodes' entries of a node vector (their inverse square-root degrees),
    each read at the node's normalised, clamped word. -/
def nrmOf (dv : FVec Ideal S100000 .f32) (s t : IVec S1700000 32) : FVec Ideal S1700000 .f32 :=
  mulf (Host.gather gather_S100000_S1700000x1_S1700000_n_0_n_n_0_1_1 dv (wrapIdx s))
    (Host.gather gather_S100000_S1700000x1_S1700000_n_0_n_n_0_1_1 dv (wrapIdx t))

/-- The weighted neighbourhood sum. -/
def aggOf (h : FVec Ideal S100000x128 .f32) (s d : IVec S1700000 32) (n : FVec Ideal S1700000 .f32) :
    FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf (Host.gather gather_S100000x128_S1700000x1_S1700000x128_1_0_n_n_0_1_1128 h (wrapIdx s)) (spread n))

/-- The per-graph mean of node rows. -/
def poolOf (h : FVec Ideal S100000x128 .f32) (g : IVec S100000 32) : FVec Ideal S512x128 .f32 :=
  Host.divf
    (Host.scatterAdd scatter_S512x128_S100000x1_S100000x128_1_0_0_1
      (broadcastInDim S512x128 ![] bcast_S_S512x128 (constant (F := Ideal) S_ .f32 0x00000000#32))
      (broadcastInDim S100000x1 ![0] bcast_S100000_S100000x1_0 g) h)
    (broadcastInDim S512x128 ![0, 1] bcast_S512x1_S512x128_0_1 (broadcastInDim S512x1 ![0] bcast_S512_S512x1_0
      (maximumf
        (Host.scatterAdd scatter_S512_S100000x1_S100000_n_0_0_1
          (broadcastInDim S512 ![] bcast_S_S512 (constant (F := Ideal) S_ .f32 0x00000000#32))
          (broadcastInDim S100000x1 ![0] bcast_S100000_S100000x1_0 g)
          (broadcastInDim S100000 ![] bcast_S_S100000 (constant (F := Ideal) S_ .f32 0x3F800000#32)))
        (broadcastInDim S512 ![] bcast_S_S512 (constant (F := Ideal) S_ .f32 0x3F800000#32)))))

/-- One layer of the reference. -/
def refLayer (h : FVec Ideal S100000x128 .f32) (w : FVec Ideal S128x128 .f32) (b : FVec Ideal S128 .f32)
    (s d : IVec S1700000 32) (n : FVec Ideal S1700000 .f32) : FVec Ideal S100000x128 .f32 :=
  maximumf
    (addf (aggOf (Host.dotGeneral dot_S100000x128_S128x128_S100000x128_1_0_0_1_n_n none h w) s d n)
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

end Cert.Chain

end
-- ==== Proof.RefChain.lean ====
/-
  The reference, layer by layer.

  The reference's program, read one operation at a time, is four layers over one set of edge data — the source
  words, the destination words and the edge weights, each a function of the edge-index argument alone —, then the
  per-graph mean, then the affine read-out.  Each equation here holds by unfolding the operations' definitions.
-/
import proofs.«134745_j64080912056838_1_alg».proof.Proof.Chain
import proofs.«134745_j64080912056838_1_alg».proof.Proof.ReadP

noncomputable section

namespace Cert.Chain

open Cert.ReferenceIdeal Cert.ReferenceIdeal.Facts₀ Cert.ReferenceIdeal.Facts Cert.ReferenceIdeal.Read Idealize.ShloMosaic

/-- The source words of the edges (the given edges, then one loop per node). -/
abbrev srcW (x1 : IVec S2x1600000 32) : IVec S1700000 32 := val_main_v3 (F := Ideal) x1
/-- The destination words of the edges. -/
abbrev dstW (x1 : IVec S2x1600000 32) : IVec S1700000 32 := val_main_v6 (F := Ideal) x1
/-- The edge weights: the product of the two end nodes' inverse square-root degrees. -/
abbrev wts (x1 : IVec S2x1600000 32) : FVec Ideal S1700000 .f32 := val_main_v30 (F := Ideal) x1

/-- The edge weights are the products of the end nodes' inverse square-root degrees. -/
theorem wts_eq (x1 : IVec S2x1600000 32) :
    wts x1 = nrmOf (val_main_v14 (F := Ideal) x1) (srcW x1) (dstW x1) := rfl

theorem ref_layer1 (x0 : FVec Ideal S100000x128 .f32) (x1 : IVec S2x1600000 32) (x3 : FVec Ideal S128x128 .f32) (x4 : FVec Ideal S128 .f32) :
    val_main_v47 (F := Ideal) x0 x1 x3 x4 = refLayer x0 x3 x4 (srcW x1) (dstW x1) (wts x1) := rfl

theorem ref_layer2 (x0 : FVec Ideal S100000x128 .f32) (x1 : IVec S2x1600000 32) (x3 : FVec Ideal S128x128 .f32) (x4 : FVec Ideal S128 .f32) (x5 : FVec Ideal S128x128 .f32) (x6 : FVec Ideal S128 .f32) :
    val_main_v80 (F := Ideal) x0 x1 x3 x4 x5 x6
      = refLayer (val_main_v47 (F := Ideal) x0 x1 x3 x4) x5 x6 (srcW x1) (dstW x1) (wts x1) := rfl

theorem ref_layer3 (x0 : FVec Ideal S100000x128 .f32) (x1 : IVec S2x1600000 32) (x3 : FVec Ideal S128x128 .f32) (x4 : FVec Ideal S128 .f32) (x5 : FVec Ideal S128x128 .f32) (x6 : FVec Ideal S128 .f32) (x7 : FVec Ideal S128x128 .f32) (x8 : FVec Ideal S128 .f32) :
    val_main_v113 (F := Ideal) x0 x1 x3 x4 x5 x6 x7 x8
      = refLayer (val_main_v80 (F := Ideal) x0 x1 x3 x4 x5 x6) x7 x8 (srcW x1) (dstW x1) (wts x1) := rfl

theorem ref_layer4 (x0 : FVec Ideal S100000x128 .f32) (x1 : IVec S2x1600000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) :
    val_main_v146 (F := Ideal) x0 x1 x3 x4 x5 x6 x7 x8 x9 x10
      = refLayer (val_main_v113 (F := Ideal) x0 x1 x3 x4 x5 x6 x7 x8) x9 x10 (srcW x1) (dstW x1) (wts x1) := rfl

theorem ref_pool (x0 : FVec Ideal S100000x128 .f32) (x1 : IVec S2x1600000 32) (x2 : IVec S100000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) :
    val_main_v158 (F := Ideal) x0 x1 x2 x3 x4 x5 x6 x7 x8 x9 x10
      = poolOf (val_main_v146 (F := Ideal) x0 x1 x3 x4 x5 x6 x7 x8 x9 x10) x2 := rfl

theorem ref_head (x0 : FVec Ideal S100000x128 .f32) (x1 : IVec S2x1600000 32) (x2 : IVec S100000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (x11 : FVec Ideal S128x10 .f32) (x12 : FVec Ideal S10 .f32) :
    val_main_v162 (F := Ideal) x0 x1 x2 x3 x4 x5 x6 x7 x8 x9 x10 x11 x12
      = addf (Host.dotGeneral (φ₁ := .f32) dot_S512x128_S128x10_S512x10_1_0_0_1_n_n none
            (val_main_v158 (F := Ideal) x0 x1 x2 x3 x4 x5 x6 x7 x8 x9 x10 : FVec Ideal S512x128 .f32) x11)
          (broadcastInDim S512x10 ![0, 1] bcast_S1x10_S512x10_0_1 (broadcastInDim S1x10 ![1] bcast_S10_S1x10_1 x12)) := rfl

end Cert.Chain

end
-- ==== Proof.LibTRefCast.lean ====
/-
  A tensor value's buffer and the value have one type.

  An operation of a function the program calls writes its value into a buffer whose type equals the value's type by
  an equation that holds by computation; the contents are carried along that equation, in both directions.  Whatever
  term stands for the contents on the other side — the same term, read at the other of the two types — is equal to
  the carried contents.  Stated with the sameness of the two terms as a heterogeneous equality, these two equations
  remove such a transport by rewriting, one occurrence at a time, without asking a simplifier to compare the two types.
  They are best used over an arbitrary valuation, so that the terms under the transports stay small.
-/
import Idealize.ShloMosaic.Lib.StableHlo

namespace Idealize.ShloMosaic.StableHlo.TRef

variable {sig : RefSig} {Val : EltTy → Type} {T : BufTy}

/-- Contents read at a value's type are the buffer's contents. -/
theorem ofBuf_eq_of_heq (x : TRef sig T) (a : x.ref.ty.Contents Val) (a' : T.Contents Val) (h : HEq a a') :
    x.ofBuf a = a' :=
  eq_of_heq ((cast_heq _ _).trans h)

/-- Contents written at a value's type are the buffer's contents. -/
theorem toBuf_eq_of_heq (x : TRef sig T) (v : T.Contents Val) (v' : x.ref.ty.Contents Val) (h : HEq v v') :
    x.toBuf v = v' :=
  eq_of_heq ((cast_heq _ _).trans h)

end Idealize.ShloMosaic.StableHlo.TRef
-- ==== Proof.KEdge.lean ====
/-
  What the first region finds: the edge data and the first aggregation.

  Before its first region the kernel program computes, by the same host operations as the reference, the source and
  destination words of the edges (the given edges followed by one loop per node), the degrees, their inverse square
  roots and the edge weights; then it gathers the input's rows, scales them and sums them into the destination rows.
  The host operations come in three stretches; each buffer's contents after a stretch is read off that stretch alone,
  from what the buffers held before it.
-/
import proofs.«134745_j64080912056838_1_alg».proof.Proof.Gen.KernelIdeal.Frame
import proofs.«134745_j64080912056838_1_alg».proof.Proof.RefChain
import proofs.«134745_j64080912056838_1_alg».proof.Proof.LibAfterResultsCat
import proofs.«134745_j64080912056838_1_alg».proof.Proof.LibTRefCast
import Idealize.ShloMosaic.Lib.StableHlo.Run
import Idealize.ShloMosaic.PureOps.Ideal

set_option maxRecDepth 16384

noncomputable section

namespace Cert.KernelIdeal.Edge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

open Cert.Chain Cert.ReferenceIdeal.Read

/-! ## After the first stretch -/

theorem a_src : W1 m ρ c (Proc.devRef .tc main_v3) = srcW (m ((c : Thread nD τ).loc main_arg1)) := by
  show StableHlo.after hostOps0 (W0 m ρ c) (Proc.devRef .tc main_v3) = _
  after_results_cat
  all_goals rfl

theorem a_dst : W1 m ρ c (Proc.devRef .tc main_v6) = dstW (m ((c : Thread nD τ).loc main_arg1)) := by
  show StableHlo.after hostOps0 (W0 m ρ c) (Proc.devRef .tc main_v6) = _
  after_results_cat
  all_goals rfl

theorem a_pos : W1 m ρ c (Proc.devRef .tc main_v12) = val_main_v12 (F := Ideal) (m ((c : Thread nD τ).loc main_arg1)) := by
  show StableHlo.after hostOps0 (W0 m ρ c) (Proc.devRef .tc main_v12) = _
  after_results_cat
  all_goals rfl

theorem a_rsqrt : W1 m ρ c (Proc.devRef .tc main_v13) = val_main_v13 (F := Ideal) (m ((c : Thread nD τ).loc main_arg1)) := by
  show StableHlo.after hostOps0 (W0 m ρ c) (Proc.devRef .tc main_v13) = _
  after_results_cat
  all_goals rfl

theorem a_zero : W1 m ρ c (Proc.devRef .tc main_cst_2) = val_main_cst_2 (F := Ideal) := by
  show StableHlo.after hostOps0 (W0 m ρ c) (Proc.devRef .tc main_cst_2) = _
  after_results_cat
  all_goals rfl

theorem a_x : W1 m ρ c (Proc.devRef .tc main_arg0) = m ((c : Thread nD τ).loc main_arg0) := by
  show StableHlo.after hostOps0 (W0 m ρ c) (Proc.devRef .tc main_arg0) = _
  after_results_cat
  all_goals rfl

theorem a_b : W1 m ρ c (Proc.devRef .tc main_arg4) = m ((c : Thread nD τ).loc main_arg4) := by
  show StableHlo.after hostOps0 (W0 m ρ c) (Proc.devRef .tc main_arg4) = _
  after_results_cat
  all_goals rfl

/-! ## After the second stretch -/

/-- The selection between the inverse square root and zero, read off the three operations that make it, from any contents. -/
theorem where_eval (V : Valuation τ sig (Elt Ideal)) :
    StableHlo.after hostOps0_1 V (Proc.devRef .tc main_v14)
      = select (V (Proc.devRef .tc main_v12)) (V (Proc.devRef .tc main_v13)) (broadcastInDim S100000 ![] bcast_S_S100000 (id (V (Proc.devRef .tc main_cst_2)))) := by
  after_results_cat
  refine StableHlo.TRef.toBuf_eq_of_heq _ _ _ ?_
  rw [StableHlo.TRef.ofBuf_eq_of_heq (StableHlo.TRef.of main_v12 : StableHlo.TRef sig ⟨S100000, .i1⟩) (V (Proc.devRef .tc main_v12)) (V (Proc.devRef .tc main_v12)) HEq.rfl,
    StableHlo.TRef.ofBuf_eq_of_heq (StableHlo.TRef.of main_v13 : StableHlo.TRef sig ⟨S100000, .f32⟩) (V (Proc.devRef .tc main_v13)) (V (Proc.devRef .tc main_v13)) HEq.rfl,
    StableHlo.TRef.ofBuf_eq_of_heq (StableHlo.TRef.of main_cst_2 : StableHlo.TRef sig ⟨S_, .f32⟩) (V (Proc.devRef .tc main_cst_2)) (V (Proc.devRef .tc main_cst_2)) HEq.rfl,
    StableHlo.TRef.toBuf_eq_of_heq (StableHlo.TRef.of main_call0_v0 : StableHlo.TRef sig ⟨S_, .f32⟩) (id (V (Proc.devRef .tc main_cst_2))) (id (V (Proc.devRef .tc main_cst_2))) HEq.rfl,
    StableHlo.TRef.ofBuf_eq_of_heq (StableHlo.TRef.of main_call0_v0 : StableHlo.TRef sig ⟨S_, .f32⟩) (id (V (Proc.devRef .tc main_cst_2))) (id (V (Proc.devRef .tc main_cst_2))) HEq.rfl,
    StableHlo.TRef.toBuf_eq_of_heq (StableHlo.TRef.of main_call0_v1 : StableHlo.TRef sig ⟨S100000, .f32⟩) (broadcastInDim S100000 ![] bcast_S_S100000 (id (V (Proc.devRef .tc main_cst_2)))) (broadcastInDim S100000 ![] bcast_S_S100000 (id (V (Proc.devRef .tc main_cst_2)))) HEq.rfl,
    StableHlo.TRef.ofBuf_eq_of_heq (StableHlo.TRef.of main_call0_v1 : StableHlo.TRef sig ⟨S100000, .f32⟩) (broadcastInDim S100000 ![] bcast_S_S100000 (id (V (Proc.devRef .tc main_cst_2)))) (broadcastInDim S100000 ![] bcast_S_S100000 (id (V (Proc.devRef .tc main_cst_2)))) HEq.rfl]

/-- The inverse square-root degrees after the second stretch. -/
theorem b_dinv : W2 m ρ c (Proc.devRef .tc main_v14) = val_main_v14 (F := Ideal) (m ((c : Thread nD τ).loc main_arg1)) := by
  refine (where_eval (W1 m ρ c)).trans ?_
  rw [a_pos, a_rsqrt, a_zero]
  rfl

theorem b_src : W2 m ρ c (Proc.devRef .tc main_v3) = srcW (m ((c : Thread nD τ).loc main_arg1)) := by
  have e : W2 m ρ c (Proc.devRef .tc main_v3) = W1 m ρ c (Proc.devRef .tc main_v3) := by
    show StableHlo.after hostOps0_1 (W1 m ρ c) (Proc.devRef .tc main_v3) = _
    after_results_cat
  rw [e, a_src]

theorem b_dst : W2 m ρ c (Proc.devRef .tc main_v6) = dstW (m ((c : Thread nD τ).loc main_arg1)) := by
  have e : W2 m ρ c (Proc.devRef .tc main_v6) = W1 m ρ c (Proc.devRef .tc main_v6) := by
    show StableHlo.after hostOps0_1 (W1 m ρ c) (Proc.devRef .tc main_v6) = _
    after_results_cat
  rw [e, a_dst]

theorem b_x : W2 m ρ c (Proc.devRef .tc main_arg0) = m ((c : Thread nD τ).loc main_arg0) := by
  have e : W2 m ρ c (Proc.devRef .tc main_arg0) = W1 m ρ c (Proc.devRef .tc main_arg0) := by
    show StableHlo.after hostOps0_1 (W1 m ρ c) (Proc.devRef .tc main_arg0) = _
    after_results_cat
  rw [e, a_x]

theorem b_b : W2 m ρ c (Proc.devRef .tc main_arg4) = m ((c : Thread nD τ).loc main_arg4) := by
  have e : W2 m ρ c (Proc.devRef .tc main_arg4) = W1 m ρ c (Proc.devRef .tc main_arg4) := by
    show StableHlo.after hostOps0_1 (W1 m ρ c) (Proc.devRef .tc main_arg4) = _
    after_results_cat
  rw [e, a_b]

/-! ## At the first region's entry -/

/-- The source words at the first region's entry. -/
theorem edge_src : W3 m ρ c (Proc.devRef .tc main_v3) = srcW (m ((c : Thread nD τ).loc main_arg1)) := by
  have e : W3 m ρ c (Proc.devRef .tc main_v3) = W2 m ρ c (Proc.devRef .tc main_v3) := by
    show StableHlo.after hostOps0_2 (W2 m ρ c) (Proc.devRef .tc main_v3) = _
    after_results_cat
  rw [e, b_src]

/-- The destination words at the first region's entry. -/
theorem edge_dst : W3 m ρ c (Proc.devRef .tc main_v6) = dstW (m ((c : Thread nD τ).loc main_arg1)) := by
  have e : W3 m ρ c (Proc.devRef .tc main_v6) = W2 m ρ c (Proc.devRef .tc main_v6) := by
    show StableHlo.after hostOps0_2 (W2 m ρ c) (Proc.devRef .tc main_v6) = _
    after_results_cat
  rw [e, b_dst]

/-- The edge weights at the first region's entry. -/
theorem edge_wts : W3 m ρ c (Proc.devRef .tc main_v29) = wts (m ((c : Thread nD τ).loc main_arg1)) := by
  have e : W3 m ρ c (Proc.devRef .tc main_v29)
      = nrmOf (W2 m ρ c (Proc.devRef .tc main_v14)) (W2 m ρ c (Proc.devRef .tc main_v3)) (W2 m ρ c (Proc.devRef .tc main_v6)) := by
    show StableHlo.after hostOps0_2 (W2 m ρ c) (Proc.devRef .tc main_v29) = _
    after_results_cat
    all_goals rfl
  rw [e, b_dinv, b_src, b_dst, wts_eq]

/-- The first aggregation: the input's rows summed along the edges. -/
theorem agg1 : W3 m ρ c (Proc.devRef .tc main_v42)
    = aggOf (m ((c : Thread nD τ).loc main_arg0)) (srcW (m ((c : Thread nD τ).loc main_arg1))) (dstW (m ((c : Thread nD τ).loc main_arg1))) (wts (m ((c : Thread nD τ).loc main_arg1))) := by
  have e : W3 m ρ c (Proc.devRef .tc main_v42)
      = aggOf (W2 m ρ c (Proc.devRef .tc main_arg0)) (W2 m ρ c (Proc.devRef .tc main_v3)) (W2 m ρ c (Proc.devRef .tc main_v6))
          (nrmOf (W2 m ρ c (Proc.devRef .tc main_v14)) (W2 m ρ c (Proc.devRef .tc main_v3)) (W2 m ρ c (Proc.devRef .tc main_v6))) := by
    show StableHlo.after hostOps0_2 (W2 m ρ c) (Proc.devRef .tc main_v42) = _
    after_results_cat
    all_goals rfl
  rw [e, b_x, b_dinv, b_src, b_dst, wts_eq]

/-- The first bias as a one-row array. -/
theorem bias1 : W3 m ρ c (Proc.devRef .tc main_v43)
    = shapeCast S1x128 (m ((c : Thread nD τ).loc main_arg4)) shapeCasts_S128_S1x128 := by
  have e : W3 m ρ c (Proc.devRef .tc main_v43) = shapeCast S1x128 (W2 m ρ c (Proc.devRef .tc main_arg4)) shapeCasts_S128_S1x128 := by
    show StableHlo.after hostOps0_2 (W2 m ρ c) (Proc.devRef .tc main_v43) = _
    after_results_cat
    all_goals rfl
  rw [e, b_b]

end Cert.KernelIdeal.Edge

end
-- ==== Proof.Spec.lean ====
/-
  The two dense steps of the network, as whole-array functions on the extended reals, index by index.

  dense a w b  : the rectified affine map of a node-feature array, entry (n, j) being
                 max (Σ_k a(n,k) · w(k,j) + b(0,j)) 0;
  head g w b   : the affine read-out of the pooled array, entry (r, j) being Σ_k g(r,k) · w(k,j) + b(0,j).

  The zero of the rectifier is kept as the single-precision pattern of 0.0: both programs spell it so.
-/
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨2, ![100000, 128]⟩
abbrev SW : Shape := ⟨2, ![128, 128]⟩
abbrev SB : Shape := ⟨2, ![1, 128]⟩
abbrev SG : Shape := ⟨2, ![512, 128]⟩
abbrev SWl : Shape := ⟨2, ![128, 10]⟩
abbrev SBl : Shape := ⟨2, ![1, 10]⟩
abbrev SY : Shape := ⟨2, ![512, 10]⟩

/-- Entry (n, j) of the rectified affine map. -/
def denseAt (a : SN.Idx → EReal) (w : SW.Idx → EReal) (b : SB.Idx → EReal) (n : Fin 100000) (j : Fin 128) : EReal :=
  max ((∑ k : Fin 128, a (ix2 n k) * w (ix2 k j)) + b (ix2 (0 : Fin 1) j)) (Ideal.ofBits .f32 0x00000000#32)

/-- The rectified affine map of a node-feature array. -/
def dense (a : SN.Idx → EReal) (w : SW.Idx → EReal) (b : SB.Idx → EReal) : SN.Idx → EReal :=
  fun i => denseAt a w b (i 0) (i 1)

theorem dense_apply (a : SN.Idx → EReal) (w : SW.Idx → EReal) (b : SB.Idx → EReal) (n : Fin 100000) (j : Fin 128) :
    dense a w b (ix2 n j) = denseAt a w b n j := rfl

/-- Entry (r, j) of the affine read-out. -/
def headAt (g : SG.Idx → EReal) (w : SWl.Idx → EReal) (b : SBl.Idx → EReal) (r : Fin 512) (j : Fin 10) : EReal :=
  (∑ k : Fin 128, g (ix2 r k) * w (ix2 k j)) + b (ix2 (0 : Fin 1) j)

/-- The affine read-out of the pooled array. -/
def head (g : SG.Idx → EReal) (w : SWl.Idx → EReal) (b : SBl.Idx → EReal) : SY.Idx → EReal :=
  fun i => headAt g w b (i 0) (i 1)

theorem head_apply (g : SG.Idx → EReal) (w : SWl.Idx → EReal) (b : SBl.Idx → EReal) (r : Fin 512) (j : Fin 10) :
    head g w b (ix2 r j) = headAt g w b r j := rfl

end Cert.Spec

end
-- ==== Proof.Blocks0.lean ====
/-
  From blocks to the array, for the first rectified affine step.

  The step walks the node-feature array in twenty bands of 5000 rows. At each band it reads the band of the
  features, the whole weight matrix and the whole bias row, and writes the band of
  max (features · weights + bias, 0). Here: the value written at one index of a band, the band written at a
  grid point as the same band of the whole-array map Spec.dense, the bands covering every row, and so the
  array after the last point being Spec.dense of the three arrays the step found.
-/
import proofs.«134745_j64080912056838_1_alg».proof.Proof.Gen.KernelIdeal.Frame
import proofs.«134745_j64080912056838_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The band product's operand indices

The product contracts the left operand's second axis against the right operand's first: at output index (p, q)
and contraction position k the operands are read at (p, k) and (k, q). -/

theorem lhs0_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs0_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs0_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The band product at an index: row p of the left band against column q of the right matrix. -/
theorem mm0_apply (a : FVec Ideal S5000x128 .bf16) (w : FVec Ideal S128x128 .bf16) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The zero offsets of a whole-buffer access, however they are spelt. -/
theorem hz0 : (![0, 0] : Fin 2 → Nat) = fun _ => 0 := funext fun a => by fin_cases a <;> rfl

/-! ## Region 0: the value written at one index of a band -/

/-- The value the body stores at (p, q) of its band, from the three blocks it loaded: the casts to the same shape and
    the narrowing are the identity on the extended reals, the product is the sum over the contracted axis, the bias row
    is repeated down the band. -/
theorem pay0_apply (x0 : Vec Ideal S5000x128 .f32) (x1 : Vec Ideal S128x128 .f32) (x2 : Vec Ideal S1x128 .f32) (p : Fin 5000) (q : Fin 128) :
    k0_pay1 (F := Ideal) x0 x1 x2 (ix2 p q)
      = max ((∑ k : Fin 128, x0 (ix2 p k) * x1 (ix2 k q)) + x2 (ix2 (0 : Fin 1) q)) (Ideal.ofBits .f32 0x00000000#32) := by
  unfold k0_pay1
  simp only [shapeCast_self]
  rw [maximumf_apply, addf_apply]
  simp only [matmul]
  rw [mm0_apply]
  rw [broadcastTo_apply x2 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]
  rfl

/-- Band r of the whole-array map from the blocks: when the first block is rows 5000 r … 5000 r + 4999 of the
    features and the other two are the whole weights and bias, the stored value at (p, q) is the map's entry
    (5000 r + p, q). -/
theorem band0 (A : Spec.SN.Idx → EReal) (W : Spec.SW.Idx → EReal) (Bi : Spec.SB.Idx → EReal)
    (x0 : Vec Ideal S5000x128 .f32) (x1 : Vec Ideal S128x128 .f32) (x2 : Vec Ideal S1x128 .f32)
    (p : Fin 5000) (q : Fin 128) (n : Fin 100000)
    (h0 : ∀ k : Fin 128, x0 (ix2 p k) = A (ix2 n k))
    (h1 : ∀ k : Fin 128, x1 (ix2 k q) = W (ix2 k q))
    (h2 : x2 (ix2 (0 : Fin 1) q) = Bi (ix2 (0 : Fin 1) q)) :
    k0_pay1 (F := Ideal) x0 x1 x2 (ix2 p q) = Spec.dense A W Bi (ix2 n q) := by
  rw [pay0_apply, Spec.dense_apply, h2, Finset.sum_congr rfl (fun k _ => by rw [h0 k, h1 k])]
  rfl

/-! ## Region 0: where each window's block sits at a grid point -/

/-- The index maps over the twenty points: the feature band moves with the output band, point t at band t; the weights
    and the bias stay at block (0, 0). -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ t.val ≤ 19 :=
  (by decide +kernel : ∀ t : Fin grid0.N, _)

/-- The feature band read at a point, at (p, k): row 5000 r + p of the array, r the output's band. -/
theorem read0_0 (A : S100000x128.Idx → EReal) (t : Fin cfg0.N) (p : Fin 5000) (k : Fin 128) (n : Fin 100000)
    (hn : n.val = win0_3.index t (0 : Fin 2) * 5000 + p.val) :
    ((cfg0.win 0).blk t).view.read (Elt Ideal) A (ix2 p k) = A (ix2 n k) := by
  obtain ⟨e00, e01, -⟩ := idx_facts0 t
  show A (((cfg0.win 0).blk t).view.emb (ix2 p k)) = A (ix2 n k)
  refine congrArg A (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- The weights read at a point: the whole matrix. -/
theorem read0_1 (W : S128x128.Idx → EReal) (t : Fin cfg0.N) (k q : Fin 128) :
    ((cfg0.win 1).blk t).view.read (Elt Ideal) W (ix2 k q) = W (ix2 k q) := by
  obtain ⟨-, -, e10, e11, -⟩ := idx_facts0 t
  show W (((cfg0.win 1).blk t).view.emb (ix2 k q)) = W (ix2 k q)
  refine congrArg W (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias read at a point: the whole row. -/
theorem read0_2 (Bi : S1x128.Idx → EReal) (t : Fin cfg0.N) (q : Fin 128) :
    ((cfg0.win 2).blk t).view.read (Elt Ideal) Bi (ix2 (0 : Fin 1) q) = Bi (ix2 (0 : Fin 1) q) := by
  obtain ⟨-, -, -, -, e20, e21, -⟩ := idx_facts0 t
  show Bi (((cfg0.win 2).blk t).view.emb (ix2 (0 : Fin 1) q)) = Bi (ix2 (0 : Fin 1) q)
  refine congrArg Bi (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-! ## Region 0: what a point writes back, the cover, the array -/

section
variable (V : (c : Dev nD) → (b : Ref sig .tc) → Buf (Elt Ideal) ((c : Thread nD τ).loc b))

/-- What point t writes back is band t of Spec.dense of the three arrays as the region finds them. -/
theorem flushed0_eq (c : Dev nD) (t : Fin cfg0.N) :
    (dat0 (F := Ideal) V c).flushed 3 t
      = ((cfg0.win 3).blk t).view.read (Elt Ideal)
          (Spec.dense (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  obtain ⟨-, -, -, -, -, -, e30, e31, hr⟩ := idx_facts0 t
  refine funext fun (j : S5000x128.Idx) => ?_
  obtain ⟨p, q, rfl⟩ : ∃ (p : Fin 5000) (q : Fin 128), j = ix2 p q := ⟨j 0, j 1, eq_ix2 j⟩
  have hp := p.isLt
  have hq := q.isLt
  have hemb : ((cfg0.win 3).blk t).view.emb (ix2 p q) = ix2 (⟨win0_3.index t (0 : Fin 2) * 5000 + p.val, by omega⟩ : Fin 100000) q :=
    funext fun a => Fin.ext (by
      match a with
      | ⟨0, _⟩ => show win0_3.index t (0 : Fin 2) * 5000 + 1 * p.val = win0_3.index t (0 : Fin 2) * 5000 + p.val; omega
      | ⟨1, _⟩ => show win0_3.index t (1 : Fin 2) * 128 + 1 * q.val = q.val; omega)
  show k0_pay1 (iblk0 V c 0 t) (iblk0 V c 1 t) (iblk0 V c 2 t) (ix2 p q)
    = Spec.dense (V c (Pipeline.arrRef spec0 0)) (V c (Pipeline.arrRef spec0 1)) (V c (Pipeline.arrRef spec0 2)) (((cfg0.win 3).blk t).view.emb (ix2 p q))
  rw [hemb]
  exact band0 _ _ _ (iblk0 V c 0 t) (iblk0 V c 1 t) (iblk0 V c 2 t) p q _
    (fun k => read0_0 (V c (Pipeline.arrRef spec0 0)) t p k _ rfl)
    (fun k => read0_1 (V c (Pipeline.arrRef spec0 1)) t k q)
    (read0_2 (V c (Pipeline.arrRef spec0 2)) t q)

/-- An index of the array is in point t's band iff each coordinate is in the band's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v44).slice (win0_3.rect t)).set ↔ _
  rw [View.set_slice_whole, Rect.mem_set_unit]
  exact Iff.rfl

/-- Every index is in some point's band: row r in the band of point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by show _ < grid0.N; rw [N_0]; omega
  obtain ⟨-, -, -, -, -, -, e30, e31, -⟩ := idx_facts0 ⟨(i 0).val / 5000, hN⟩
  have e30' : win0_3.index ⟨(i 0).val / 5000, hN⟩ (0 : Fin 2) = (i 0).val / 5000 := e30
  refine ⟨⟨(i 0).val / 5000, hN⟩, flush0_3 _, ?_⟩
  rw [mem_blk0]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; omega

/-- The array after the last point: Spec.dense of the three arrays the region found. -/
theorem final0 (c : Dev nD) :
    (dat0 (F := Ideal) V c).arrAt 3 cfg0.N
      = Spec.dense (V c (Pipeline.arrRef spec0 0)) (V c (Pipeline.arrRef spec0 1)) (V c (Pipeline.arrRef spec0 2)) :=
  (dat0 (F := Ideal) V c).arrAt_eq_of_cover 3 _ (fun t _ => flushed0_eq V c t) cover0

end

end Cert.KernelIdeal.Blocks

end
-- ==== Proof.Blocks1.lean ====
/-
  From blocks to the array, for the second rectified affine step.

  The step walks the node-feature array in twenty bands of 5000 rows. At each band it reads the band of the
  features, the whole weight matrix and the whole bias row, and writes the band of
  max (features · weights + bias, 0). Here: the value written at one index of a band, the band written at a
  grid point as the same band of the whole-array map Spec.dense, the bands covering every row, and so the
  array after the last point being Spec.dense of the three arrays the step found.
-/
import proofs.«134745_j64080912056838_1_alg».proof.Proof.Gen.KernelIdeal.Frame
import proofs.«134745_j64080912056838_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The band product's operand indices

The product contracts the left operand's second axis against the right operand's first: at output index (p, q)
and contraction position k the operands are read at (p, k) and (k, q). -/

theorem lhs1_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs1_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs1_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The band product at an index: row p of the left band against column q of the right matrix. -/
theorem mm1_apply (a : FVec Ideal S5000x128 .bf16) (w : FVec Ideal S128x128 .bf16) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The zero offsets of a whole-buffer access, however they are spelt. -/
theorem hz1 : (![0, 0] : Fin 2 → Nat) = fun _ => 0 := funext fun a => by fin_cases a <;> rfl

/-! ## Region 1: the value written at one index of a band -/

/-- The value the body stores at (p, q) of its band, from the three blocks it loaded: the casts to the same shape and
    the narrowing are the identity on the extended reals, the product is the sum over the contracted axis, the bias row
    is repeated down the band. -/
theorem pay1_apply (x0 : Vec Ideal S5000x128 .f32) (x1 : Vec Ideal S128x128 .f32) (x2 : Vec Ideal S1x128 .f32) (p : Fin 5000) (q : Fin 128) :
    k1_pay1 (F := Ideal) x0 x1 x2 (ix2 p q)
      = max ((∑ k : Fin 128, x0 (ix2 p k) * x1 (ix2 k q)) + x2 (ix2 (0 : Fin 1) q)) (Ideal.ofBits .f32 0x00000000#32) := by
  unfold k1_pay1
  simp only [shapeCast_self]
  rw [maximumf_apply, addf_apply]
  simp only [matmul]
  rw [mm1_apply]
  rw [broadcastTo_apply x2 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]
  rfl

/-- Band r of the whole-array map from the blocks: when the first block is rows 5000 r … 5000 r + 4999 of the
    features and the other two are the whole weights and bias, the stored value at (p, q) is the map's entry
    (5000 r + p, q). -/
theorem band1 (A : Spec.SN.Idx → EReal) (W : Spec.SW.Idx → EReal) (Bi : Spec.SB.Idx → EReal)
    (x0 : Vec Ideal S5000x128 .f32) (x1 : Vec Ideal S128x128 .f32) (x2 : Vec Ideal S1x128 .f32)
    (p : Fin 5000) (q : Fin 128) (n : Fin 100000)
    (h0 : ∀ k : Fin 128, x0 (ix2 p k) = A (ix2 n k))
    (h1 : ∀ k : Fin 128, x1 (ix2 k q) = W (ix2 k q))
    (h2 : x2 (ix2 (0 : Fin 1) q) = Bi (ix2 (0 : Fin 1) q)) :
    k1_pay1 (F := Ideal) x0 x1 x2 (ix2 p q) = Spec.dense A W Bi (ix2 n q) := by
  rw [pay1_apply, Spec.dense_apply, h2, Finset.sum_congr rfl (fun k _ => by rw [h0 k, h1 k])]
  rfl

/-! ## Region 1: where each window's block sits at a grid point -/

/-- The index maps over the twenty points: the feature band moves with the output band, point t at band t; the weights
    and the bias stay at block (0, 0). -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ t.val ≤ 19 :=
  (by decide +kernel : ∀ t : Fin grid1.N, _)

/-- The feature band read at a point, at (p, k): row 5000 r + p of the array, r the output's band. -/
theorem read1_0 (A : S100000x128.Idx → EReal) (t : Fin cfg1.N) (p : Fin 5000) (k : Fin 128) (n : Fin 100000)
    (hn : n.val = win1_3.index t (0 : Fin 2) * 5000 + p.val) :
    ((cfg1.win 0).blk t).view.read (Elt Ideal) A (ix2 p k) = A (ix2 n k) := by
  obtain ⟨e00, e01, -⟩ := idx_facts1 t
  show A (((cfg1.win 0).blk t).view.emb (ix2 p k)) = A (ix2 n k)
  refine congrArg A (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- The weights read at a point: the whole matrix. -/
theorem read1_1 (W : S128x128.Idx → EReal) (t : Fin cfg1.N) (k q : Fin 128) :
    ((cfg1.win 1).blk t).view.read (Elt Ideal) W (ix2 k q) = W (ix2 k q) := by
  obtain ⟨-, -, e10, e11, -⟩ := idx_facts1 t
  show W (((cfg1.win 1).blk t).view.emb (ix2 k q)) = W (ix2 k q)
  refine congrArg W (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias read at a point: the whole row. -/
theorem read1_2 (Bi : S1x128.Idx → EReal) (t : Fin cfg1.N) (q : Fin 128) :
    ((cfg1.win 2).blk t).view.read (Elt Ideal) Bi (ix2 (0 : Fin 1) q) = Bi (ix2 (0 : Fin 1) q) := by
  obtain ⟨-, -, -, -, e20, e21, -⟩ := idx_facts1 t
  show Bi (((cfg1.win 2).blk t).view.emb (ix2 (0 : Fin 1) q)) = Bi (ix2 (0 : Fin 1) q)
  refine congrArg Bi (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-! ## Region 1: what a point writes back, the cover, the array -/

section
variable (V : (c : Dev nD) → (b : Ref sig .tc) → Buf (Elt Ideal) ((c : Thread nD τ).loc b))

/-- What point t writes back is band t of Spec.dense of the three arrays as the region finds them. -/
theorem flushed1_eq (c : Dev nD) (t : Fin cfg1.N) :
    (dat1 (F := Ideal) V c).flushed 3 t
      = ((cfg1.win 3).blk t).view.read (Elt Ideal)
          (Spec.dense (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1, View.ld_unit_zero (S := S1x128) hz1]
  obtain ⟨-, -, -, -, -, -, e30, e31, hr⟩ := idx_facts1 t
  refine funext fun (j : S5000x128.Idx) => ?_
  obtain ⟨p, q, rfl⟩ : ∃ (p : Fin 5000) (q : Fin 128), j = ix2 p q := ⟨j 0, j 1, eq_ix2 j⟩
  have hp := p.isLt
  have hq := q.isLt
  have hemb : ((cfg1.win 3).blk t).view.emb (ix2 p q) = ix2 (⟨win1_3.index t (0 : Fin 2) * 5000 + p.val, by omega⟩ : Fin 100000) q :=
    funext fun a => Fin.ext (by
      match a with
      | ⟨0, _⟩ => show win1_3.index t (0 : Fin 2) * 5000 + 1 * p.val = win1_3.index t (0 : Fin 2) * 5000 + p.val; omega
      | ⟨1, _⟩ => show win1_3.index t (1 : Fin 2) * 128 + 1 * q.val = q.val; omega)
  show k1_pay1 (iblk1 V c 0 t) (iblk1 V c 1 t) (iblk1 V c 2 t) (ix2 p q)
    = Spec.dense (V c (Pipeline.arrRef spec1 0)) (V c (Pipeline.arrRef spec1 1)) (V c (Pipeline.arrRef spec1 2)) (((cfg1.win 3).blk t).view.emb (ix2 p q))
  rw [hemb]
  exact band1 _ _ _ (iblk1 V c 0 t) (iblk1 V c 1 t) (iblk1 V c 2 t) p q _
    (fun k => read1_0 (V c (Pipeline.arrRef spec1 0)) t p k _ rfl)
    (fun k => read1_1 (V c (Pipeline.arrRef spec1 1)) t k q)
    (read1_2 (V c (Pipeline.arrRef spec1 2)) t q)

/-- An index of the array is in point t's band iff each coordinate is in the band's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v59).slice (win1_3.rect t)).set ↔ _
  rw [View.set_slice_whole, Rect.mem_set_unit]
  exact Iff.rfl

/-- Every index is in some point's band: row r in the band of point r / 5000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := by show _ < grid1.N; rw [N_1]; omega
  obtain ⟨-, -, -, -, -, -, e30, e31, -⟩ := idx_facts1 ⟨(i 0).val / 5000, hN⟩
  have e30' : win1_3.index ⟨(i 0).val / 5000, hN⟩ (0 : Fin 2) = (i 0).val / 5000 := e30
  refine ⟨⟨(i 0).val / 5000, hN⟩, flush1_3 _, ?_⟩
  rw [mem_blk1]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; omega

/-- The array after the last point: Spec.dense of the three arrays the region found. -/
theorem final1 (c : Dev nD) :
    (dat1 (F := Ideal) V c).arrAt 3 cfg1.N
      = Spec.dense (V c (Pipeline.arrRef spec1 0)) (V c (Pipeline.arrRef spec1 1)) (V c (Pipeline.arrRef spec1 2)) :=
  (dat1 (F := Ideal) V c).arrAt_eq_of_cover 3 _ (fun t _ => flushed1_eq V c t) cover1

end

end Cert.KernelIdeal.Blocks

end
-- ==== Proof.Blocks2.lean ====
/-
  From blocks to the array, for the third rectified affine step.

  The step walks the node-feature array in twenty bands of 5000 rows. At each band it reads the band of the
  features, the whole weight matrix and the whole bias row, and writes the band of
  max (features · weights + bias, 0). Here: the value written at one index of a band, the band written at a
  grid point as the same band of the whole-array map Spec.dense, the bands covering every row, and so the
  array after the last point being Spec.dense of the three arrays the step found.
-/
import proofs.«134745_j64080912056838_1_alg».proof.Proof.Gen.KernelIdeal.Frame
import proofs.«134745_j64080912056838_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The band product's operand indices

The product contracts the left operand's second axis against the right operand's first: at output index (p, q)
and contraction position k the operands are read at (p, k) and (k, q). -/

theorem lhs2_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs2_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs2_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The band product at an index: row p of the left band against column q of the right matrix. -/
theorem mm2_apply (a : FVec Ideal S5000x128 .bf16) (w : FVec Ideal S128x128 .bf16) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-- The zero offsets of a whole-buffer access, however they are spelt. -/
theorem hz2 : (![0, 0] : Fin 2 → Nat) = fun _ => 0 := funext fun a => by fin_cases a <;> rfl

/-! ## Region 2: the value written at one index of a band -/

/-- The value the body stores at (p, q) of its band, from the three blocks it loaded: the casts to the same shape and
    the narrowing are the identity on the extended reals, the product is the sum over the contracted axis, the bias row
    is repeated down the band. -/
theorem pay2_apply (x0 : Vec Ideal S5000x128 .f32) (x1 : Vec Ideal S128x128 .f32) (x2 : Vec Ideal S1x128 .f32) (p : Fin 5000) (q : Fin 128) :
    k2_pay1 (F := Ideal) x0 x1 x2 (ix2 p q)
      = max ((∑ k : Fin 128, x0 (ix2 p k) * x1 (ix2 k q)) + x2 (ix2 (0 : Fin 1) q)) (Ideal.ofBits .f32 0x00000000#32) := by
  unfold k2_pay1
  simp only [shapeCast_self]
  rw [maximumf_apply, addf_apply]
  simp only [matmul]
  rw [mm2_apply]
  rw [broadcastTo_apply x2 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]
  rfl

/-- Band r of the whole-array map from the blocks: when the first block is rows 5000 r … 5000 r + 4999 of the
    features and the other two are the whole weights and bias, the stored value at (p, q) is the map's entry
    (5000 r + p, q). -/
theorem band2 (A : Spec.SN.Idx → EReal) (W : Spec.SW.Idx → EReal) (Bi : Spec.SB.Idx → EReal)
    (x0 : Vec Ideal S5000x128 .f32) (x1 : Vec Ideal S128x128 .f32) (x2 : Vec Ideal S1x128 .f32)
    (p : Fin 5000) (q : Fin 128) (n : Fin 100000)
    (h0 : ∀ k : Fin 128, x0 (ix2 p k) = A (ix2 n k))
    (h1 : ∀ k : Fin 128, x1 (ix2 k q) = W (ix2 k q))
    (h2 : x2 (ix2 (0 : Fin 1) q) = Bi (ix2 (0 : Fin 1) q)) :
    k2_pay1 (F := Ideal) x0 x1 x2 (ix2 p q) = Spec.dense A W Bi (ix2 n q) := by
  rw [pay2_apply, Spec.dense_apply, h2, Finset.sum_congr rfl (fun k _ => by rw [h0 k, h1 k])]
  rfl

/-! ## Region 2: where each window's block sits at a grid point -/

/-- The index maps over the twenty points: the feature band moves with the output band, point t at band t; the weights
    and the bias stay at block (0, 0). -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ t.val ≤ 19 :=
  (by decide +kernel : ∀ t : Fin grid2.N, _)

/-- The feature band read at a point, at (p, k): row 5000 r + p of the array, r the output's band. -/
theorem read2_0 (A : S100000x128.Idx → EReal) (t : Fin cfg2.N) (p : Fin 5000) (k : Fin 128) (n : Fin 100000)
    (hn : n.val = win2_3.index t (0 : Fin 2) * 5000 + p.val) :
    ((cfg2.win 0).blk t).view.read (Elt Ideal) A (ix2 p k) = A (ix2 n k) := by
  obtain ⟨e00, e01, -⟩ := idx_facts2 t
  show A (((cfg2.win 0).blk t).view.emb (ix2 p k)) = A (ix2 n k)
  refine congrArg A (funext fun a => Fin.ext ?_)
  match a with
  | ⟨0, _⟩ => show win2_0.index t (0 : Fin 2) * 5000 + 1 * p.val = n.val; omega
  | ⟨1, _⟩ => show win2_0.index t (1 : Fin 2) * 128 + 1 * k.val = k.val; omega

/-- The weights read at a point: the whole matrix. -/
theorem read2_1 (W : S128x128.Idx → EReal) (t : Fin cfg2.N) (k q : Fin 128) :
    ((cfg2.win 1).blk t).view.read (Elt Ideal) W (ix2 k q) = W (ix2 k q) := by
  obtain ⟨-, -, e10, e11, -⟩ := idx_facts2 t
  show W (((cfg2.win 1).blk t).view.emb (ix2 k q)) = W (ix2 k q)
  refine congrArg W (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The bias read at a point: the whole row. -/
theorem read2_2 (Bi : S1x128.Idx → EReal) (t : Fin cfg2.N) (q : Fin 128) :
    ((cfg2.win 2).blk t).view.read (Elt Ideal) Bi (ix2 (0 : Fin 1) q) = Bi (ix2 (0 : Fin 1) q) := by
  obtain ⟨-, -, -, -, e20, e21, -⟩ := idx_facts2 t
  show Bi (((cfg2.win 2).blk t).view.emb (ix2 (0 : Fin 1) q)) = Bi (ix2 (0 : Fin 1) q)
  refine congrArg Bi (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 128 + 1 * q.val = q.val; omega

/-! ## Region 2: what a point writes back, the cover, the array -/

section
variable (V : (c : Dev nD) → (b : Ref sig .tc) → Buf (Elt Ideal) ((c : Thread nD τ).loc b))

/-- What point t writes back is band t of Spec.dense of the three arrays as the region finds them. -/
theorem flushed2_eq (c : Dev nD) (t : Fin cfg2.N) :
    (dat2 (F := Ideal) V c).flushed 3 t
      = ((cfg2.win 3).blk t).view.read (Elt Ideal)
          (Spec.dense (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S1x128) hz2]
  obtain ⟨-, -, -, -, -, -, e30, e31, hr⟩ := idx_facts2 t
  refine funext fun (j : S5000x128.Idx) => ?_
  obtain ⟨p, q, rfl⟩ : ∃ (p : Fin 5000) (q : Fin 128), j = ix2 p q := ⟨j 0, j 1, eq_ix2 j⟩
  have hp := p.isLt
  have hq := q.isLt
  have hemb : ((cfg2.win 3).blk t).view.emb (ix2 p q) = ix2 (⟨win2_3.index t (0 : Fin 2) * 5000 + p.val, by omega⟩ : Fin 100000) q :=
    funext fun a => Fin.ext (by
      match a with
      | ⟨0, _⟩ => show win2_3.index t (0 : Fin 2) * 5000 + 1 * p.val = win2_3.index t (0 : Fin 2) * 5000 + p.val; omega
      | ⟨1, _⟩ => show win2_3.index t (1 : Fin 2) * 128 + 1 * q.val = q.val; omega)
  show k2_pay1 (iblk2 V c 0 t) (iblk2 V c 1 t) (iblk2 V c 2 t) (ix2 p q)
    = Spec.dense (V c (Pipeline.arrRef spec2 0)) (V c (Pipeline.arrRef spec2 1)) (V c (Pipeline.arrRef spec2 2)) (((cfg2.win 3).blk t).view.emb (ix2 p q))
  rw [hemb]
  exact band2 _ _ _ (iblk2 V c 0 t) (iblk2 V c 1 t) (iblk2 V c 2 t) p q _
    (fun k => read2_0 (V c (Pipeline.arrRef spec2 0)) t p k _ rfl)
    (fun k => read2_1 (V c (Pipeline.arrRef spec2 1)) t k q)
    (read2_2 (V c (Pipeline.arrRef spec2 2)) t q)

/-- An index of the array is in point t's band iff each coordinate is in the band's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v74).slice (win2_3.rect t)).set ↔ _
  rw [View.set_slice_whole, Rect.mem_set_unit]
  exact Iff.rfl

/-- Every index is in some point's band: row r in the band of point r / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < cfg2.N := by show _ < grid2.N; rw [N_2]; omega
  obtain ⟨-, -, -, -, -, -, e30, e31, -⟩ := idx_facts2 ⟨(i 0).val / 5000, hN⟩
  have e30' : win2_3.index ⟨(i 0).val / 5000, hN⟩ (0 : Fin 2) = (i 0).val / 5000 := e30
  refine ⟨⟨(i 0).val / 5000, hN⟩, flush2_3 _, ?_⟩
  rw [mem_blk2]
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; omega
  | ⟨1, _⟩ => show win2_3.index ⟨(i 0).val / 5000, hN⟩ (1 : Fin 2) * 128 ≤ (i 1).val ∧ (i 1).val < win2_3.index ⟨(i 0).val / 5000, hN⟩ (1 : Fin 2) * 128 + 128; omega

/-- The array after the last point: Spec.dense of the three arrays the region found. -/
theorem final2 (c : Dev nD) :
    (dat2 (F := Ideal) V c).arrAt 3 cfg2.N
      = Spec.dense (V c (Pipeline.arrRef spec2 0)) (V c (Pipeline.arrRef spec2 1)) (V c (Pipeline.arrRef spec2 2)) :=
  (dat2 (F := Ideal) V c).arrAt_eq_of_cover 3 _ (fun t _ => flushed2_eq V c t) cover2

end

end Cert.KernelIdeal.Blocks

end
-- ==== Proof.Blocks3.lean ====
/-
  From blocks to the array, for the fourth rectified affine step.

  The step walks the node-feature array in twenty bands of 5000 rows. At each band it reads the band of the
  features, the whole weight matrix and the whole bias row, and writes the band of
  max (features · weights + bias, 0). Here: the value written at one index of a band, the band written at a
  grid point as the same band of the whole-array map Spec.dense, the bands covering every row, and so the
  array after the last point being Spec.dense of the three arrays the step found.
-/
import proofs.«134745_j64080912056838_1_alg».proof.Proof.Gen.KernelIdeal.Frame
import proofs.«134745_j64080912056838_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The band product's operand indices

The product contracts the left operand's second axis against the right operand's first: at output index (p, q)
and contraction position k the operands are read at (p, k) and (k, q). -/

theorem lhs3_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs3_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs3_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs3_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The band product at an index: row p of the left band against column q of the right matrix. -/
theorem mm3_apply (a : FVec Ideal S5000x128 .bf16) (w : FVec Ideal S128x128 .bf16) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs3_0 _ _
    | ⟨1, _⟩ => exact (lhs3_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-- The zero offsets of a whole-buffer access, however they are spelt. -/
theorem hz3 : (![0, 0] : Fin 2 → Nat) = fun _ => 0 := funext fun a => by fin_cases a <;> rfl

/-! ## Region 3: the value written at one index of a band -/

/-- The value the body stores at (p, q) of its band, from the three blocks it loaded: the casts to the same shape and
    the narrowing are the identity on the extended reals, the product is the sum over the contracted axis, the bias row
    is repeated down the band. -/
theorem pay3_apply (x0 : Vec Ideal S5000x128 .f32) (x1 : Vec Ideal S128x128 .f32) (x2 : Vec Ideal S1x128 .f32) (p : Fin 5000) (q : Fin 128) :
    k3_pay1 (F := Ideal) x0 x1 x2 (ix2 p q)
      = max ((∑ k : Fin 128, x0 (ix2 p k) * x1 (ix2 k q)) + x2 (ix2 (0 : Fin 1) q)) (Ideal.ofBits .f32 0x00000000#32) := by
  unfold k3_pay1
  simp only [shapeCast_self]
  rw [maximumf_apply, addf_apply]
  simp only [matmul]
  rw [mm3_apply]
  rw [broadcastTo_apply x2 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]
  rfl

/-- Band r of the whole-array map from the blocks: when the first block is rows 5000 r … 5000 r + 4999 of the
    features and the other two are the whole weights and bias, the stored value at (p, q) is the map's entry
    (5000 r + p, q). -/
theorem band3 (A : Spec.SN.Idx → EReal) (W : Spec.SW.Idx → EReal) (Bi : Spec.SB.Idx → EReal)
    (x0 : Vec Ideal S5000x128 .f32) (x1 : Vec Ideal S128x128 .f32) (x2 : Vec Ideal S1x128 .f32)
    (p : Fin 5000) (q : Fin 128) (n : Fin 100000)
    (h0 : ∀ k : Fin 128, x0 (ix2 p k) = A (ix2 n k))
    (h1 : ∀ k : Fin 128, x1 (ix2 k q) = W (ix2 k q))
    (h2 : x2 (ix2 (0 : Fin 1) q) = Bi (ix2 (0 : Fin 1) q)) :
    k3_pay1 (F := Ideal) x0 x1 x2 (ix2 p q) = Spec.dense A W Bi (ix2 n q) := by
  rw [pay3_apply, Spec.dense_apply, h2, Finset.sum_congr rfl (fun k _ => by rw [h0 k, h1 k])]
  rfl

/-! ## Region 3: where each window's block sits at a grid point -/

/-- The index maps over the twenty points: the feature band moves with the output band, point t at band t; the weights
    and the bias stay at block (0, 0). -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ t.val ≤ 19 :=
  (by decide +kernel : ∀ t : Fin grid3.N, _)

/-- The feature band read at a point, at (p, k): row 5000 r + p of the array, r the output's band. -/
theorem read3_0 (A : S100000x128.Idx → EReal) (t : Fin cfg3.N) (p : Fin 5000) (k : Fin 128) (n : Fin 100000)
    (hn : n.val = win3_3.index t (0 : Fin 2) * 5000 + p.val) :
    ((cfg3.win 0).blk t).view.read (Elt Ideal) A (ix2 p k) = A (ix2 n k) := by
  obtain ⟨e00, e01, -⟩ := idx_facts3 t
  show A (((cfg3.win 0).blk t).view.emb (ix2 p k)) = A (ix2 n k)
  refine congrArg A (funext fun a => Fin.ext ?_)
  match a with
  | ⟨0, _⟩ => show win3_0.index t (0 : Fin 2) * 5000 + 1 * p.val = n.val; omega
  | ⟨1, _⟩ => show win3_0.index t (1 : Fin 2) * 128 + 1 * k.val = k.val; omega

/-- The weights read at a point: the whole matrix. -/
theorem read3_1 (W : S128x128.Idx → EReal) (t : Fin cfg3.N) (k q : Fin 128) :
    ((cfg3.win 1).blk t).view.read (Elt Ideal) W (ix2 k q) = W (ix2 k q) := by
  obtain ⟨-, -, e10, e11, -⟩ := idx_facts3 t
  show W (((cfg3.win 1).blk t).view.emb (ix2 k q)) = W (ix2 k q)
  refine congrArg W (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- The bias read at a point: the whole row. -/
theorem read3_2 (Bi : S1x128.Idx → EReal) (t : Fin cfg3.N) (q : Fin 128) :
    ((cfg3.win 2).blk t).view.read (Elt Ideal) Bi (ix2 (0 : Fin 1) q) = Bi (ix2 (0 : Fin 1) q) := by
  obtain ⟨-, -, -, -, e20, e21, -⟩ := idx_facts3 t
  show Bi (((cfg3.win 2).blk t).view.emb (ix2 (0 : Fin 1) q)) = Bi (ix2 (0 : Fin 1) q)
  refine congrArg Bi (funext fun a => Fin.ext ?_)
  match a with
  | ⟨0, _⟩ => show win3_2.index t (0 : Fin 2) * 1 + 1 * (0 : Fin 1).val = (0 : Fin 1).val; omega
  | ⟨1, _⟩ => show win3_2.index t (1 : Fin 2) * 128 + 1 * q.val = q.val; omega

/-! ## Region 3: what a point writes back, the cover, the array -/

section
variable (V : (c : Dev nD) → (b : Ref sig .tc) → Buf (Elt Ideal) ((c : Thread nD τ).loc b))

/-- What point t writes back is band t of Spec.dense of the three arrays as the region finds them. -/
theorem flushed3_eq (c : Dev nD) (t : Fin cfg3.N) :
    (dat3 (F := Ideal) V c).flushed 3 t
      = ((cfg3.win 3).blk t).view.read (Elt Ideal)
          (Spec.dense (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S128x128) hz3, View.ld_unit_zero (S := S1x128) hz3]
  obtain ⟨-, -, -, -, -, -, e30, e31, hr⟩ := idx_facts3 t
  refine funext fun (j : S5000x128.Idx) => ?_
  obtain ⟨p, q, rfl⟩ : ∃ (p : Fin 5000) (q : Fin 128), j = ix2 p q := ⟨j 0, j 1, eq_ix2 j⟩
  have hp := p.isLt
  have hq := q.isLt
  have hemb : ((cfg3.win 3).blk t).view.emb (ix2 p q) = ix2 (⟨win3_3.index t (0 : Fin 2) * 5000 + p.val, by omega⟩ : Fin 100000) q :=
    funext fun a => Fin.ext (by
      match a with
      | ⟨0, _⟩ => show win3_3.index t (0 : Fin 2) * 5000 + 1 * p.val = win3_3.index t (0 : Fin 2) * 5000 + p.val; omega
      | ⟨1, _⟩ => show win3_3.index t (1 : Fin 2) * 128 + 1 * q.val = q.val; omega)
  show k3_pay1 (iblk3 V c 0 t) (iblk3 V c 1 t) (iblk3 V c 2 t) (ix2 p q)
    = Spec.dense (V c (Pipeline.arrRef spec3 0)) (V c (Pipeline.arrRef spec3 1)) (V c (Pipeline.arrRef spec3 2)) (((cfg3.win 3).blk t).view.emb (ix2 p q))
  rw [hemb]
  exact band3 _ _ _ (iblk3 V c 0 t) (iblk3 V c 1 t) (iblk3 V c 2 t) p q _
    (fun k => read3_0 (V c (Pipeline.arrRef spec3 0)) t p k _ rfl)
    (fun k => read3_1 (V c (Pipeline.arrRef spec3 1)) t k q)
    (read3_2 (V c (Pipeline.arrRef spec3 2)) t q)

/-- An index of the array is in point t's band iff each coordinate is in the band's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v89).slice (win3_3.rect t)).set ↔ _
  rw [View.set_slice_whole, Rect.mem_set_unit]
  exact Iff.rfl

/-- Every index is in some point's band: row r in the band of point r / 5000. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 5000 < cfg3.N := by show _ < grid3.N; rw [N_3]; omega
  obtain ⟨-, -, -, -, -, -, e30, e31, -⟩ := idx_facts3 ⟨(i 0).val / 5000, hN⟩
  have e30' : win3_3.index ⟨(i 0).val / 5000, hN⟩ (0 : Fin 2) = (i 0).val / 5000 := e30
  refine ⟨⟨(i 0).val / 5000, hN⟩, flush3_3 _, ?_⟩
  rw [mem_blk3]
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; omega
  | ⟨1, _⟩ => show win3_3.index ⟨(i 0).val / 5000, hN⟩ (1 : Fin 2) * 128 ≤ (i 1).val ∧ (i 1).val < win3_3.index ⟨(i 0).val / 5000, hN⟩ (1 : Fin 2) * 128 + 128; omega

/-- The array after the last point: Spec.dense of the three arrays the region found. -/
theorem final3 (c : Dev nD) :
    (dat3 (F := Ideal) V c).arrAt 3 cfg3.N
      = Spec.dense (V c (Pipeline.arrRef spec3 0)) (V c (Pipeline.arrRef spec3 1)) (V c (Pipeline.arrRef spec3 2)) :=
  (dat3 (F := Ideal) V c).arrAt_eq_of_cover 3 _ (fun t _ => flushed3_eq V c t) cover3

end

end Cert.KernelIdeal.Blocks

end
-- ==== Proof.Blocks4.lean ====
/-
  From blocks to the array, for the affine read-out.

  The step has one grid point: it reads the whole pooled array, the whole weight matrix and the whole bias row, and
  writes the whole of pooled · weights + bias. Here: the value written at one index, what the one point writes back
  as the whole-array map Spec.head, and so the array after the point being Spec.head of the three arrays the step found.
-/
import proofs.«134745_j64080912056838_1_alg».proof.Proof.Gen.KernelIdeal.Frame
import proofs.«134745_j64080912056838_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices

The product contracts the left operand's second axis against the right operand's first: at output index (p, q)
and contraction position k the operands are read at (p, k) and (k, q). -/

theorem lhs4_0 (i : S512x10.Idx) (κ : dot_S512x128_S128x10_S512x10_1_0_0_1_n_n.contr.Idx) :
    (dot_S512x128_S128x10_S512x10_1_0_0_1_n_n.lhsIdx i κ 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
theorem lhs4_1 (i : S512x10.Idx) (κ : dot_S512x128_S128x10_S512x10_1_0_0_1_n_n.contr.Idx) :
    (dot_S512x128_S128x10_S512x10_1_0_0_1_n_n.lhsIdx i κ 1).val = (κ ⟨0, by decide⟩).val :=
  dot_S512x128_S128x10_S512x10_1_0_0_1_n_n.lhsIdx_val_of_single rfl i κ
theorem rhs4_0 (i : S512x10.Idx) (κ : dot_S512x128_S128x10_S512x10_1_0_0_1_n_n.contr.Idx) :
    (dot_S512x128_S128x10_S512x10_1_0_0_1_n_n.rhsIdx i κ 0).val = (κ ⟨0, by decide⟩).val :=
  dot_S512x128_S128x10_S512x10_1_0_0_1_n_n.rhsIdx_val_of_single rfl i κ
theorem rhs4_1 (i : S512x10.Idx) (κ : dot_S512x128_S128x10_S512x10_1_0_0_1_n_n.contr.Idx) :
    (dot_S512x128_S128x10_S512x10_1_0_0_1_n_n.rhsIdx i κ 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-- The product at an index: row p of the left array against column q of the right matrix. -/
theorem mm4_apply (a : FVec Ideal S512x128 .bf16) (w : FVec Ideal S128x10 .bf16) (p : Fin 512) (q : Fin 10) :
    FloatOps.matmul dot_S512x128_S128x10_S512x10_1_0_0_1_n_n none a w (constant S512x10 .f32 0x00000000#32) (ix2 p q)
      = ∑ k : Fin 128, a (ix2 p k) * w (ix2 k q) := by
  rw [Ideal.matmul_constant_zero_apply, ← Equiv.sum_comp (contrEquiv1 dot_S512x128_S128x10_S512x10_1_0_0_1_n_n 128 rfl rfl).symm]
  refine Finset.sum_congr rfl fun k _ => ?_
  have hk := contrEquiv1_symm_val dot_S512x128_S128x10_S512x10_1_0_0_1_n_n 128 rfl rfl k
  have el : dot_S512x128_S128x10_S512x10_1_0_0_1_n_n.lhsIdx (ix2 p q) ((contrEquiv1 dot_S512x128_S128x10_S512x10_1_0_0_1_n_n 128 rfl rfl).symm k) = ix2 p k := funext fun a => Fin.ext (by
    match a with
    | ⟨0, _⟩ => exact lhs4_0 _ _
    | ⟨1, _⟩ => exact (lhs4_1 _ _).trans hk)
  have er : dot_S512x128_S128x10_S512x10_1_0_0_1_n_n.rhsIdx (ix2 p q) ((contrEquiv1 dot_S512x128_S128x10_S512x10_1_0_0_1_n_n 128 rfl rfl).symm k) = ix2 k q := funext fun a => Fin.ext (by
    match a with
    | ⟨0, _⟩ => exact (rhs4_0 _ _).trans hk
    | ⟨1, _⟩ => exact rhs4_1 _ _)
  rw [el, er]

/-- The zero offsets of a whole-buffer access, however they are spelt. -/
theorem hz4 : (![0, 0] : Fin 2 → Nat) = fun _ => 0 := funext fun a => by fin_cases a <;> rfl

/-! ## The value written at one index -/

/-- The value the body stores at (p, q), from the three blocks it loaded: the casts to the same shape and the narrowing
    are the identity on the extended reals, the product is the sum over the contracted axis, the bias row is repeated
    down the array. -/
theorem pay4_apply (x0 : Vec Ideal S512x128 .f32) (x1 : Vec Ideal S128x10 .f32) (x2 : Vec Ideal S1x10 .f32) (p : Fin 512) (q : Fin 10) :
    k4_pay1 (F := Ideal) x0 x1 x2 (ix2 p q)
      = (∑ k : Fin 128, x0 (ix2 p k) * x1 (ix2 k q)) + x2 (ix2 (0 : Fin 1) q) := by
  unfold k4_pay1
  simp only [shapeCast_self]
  rw [addf_apply]
  simp only [matmul]
  rw [mm4_apply]
  rw [broadcastTo_apply x2 broadcasts_S1x10_S512x10 (ix2 p q) (ix2 (0 : Fin 1) q) (fun a => match a with
    | ⟨0, _⟩ => by show 0 = if (1 : Nat) = 1 then 0 else _; rw [if_pos rfl]
    | ⟨1, _⟩ => by show q.val = if (10 : Nat) = 1 then 0 else q.val; rw [if_neg (by decide)])]
  rfl

/-- The whole-array map from the blocks: when the three blocks are the three whole arrays, the stored value at
    (p, q) is the map's entry (p, q). -/
theorem whole4 (G : Spec.SG.Idx → EReal) (W : Spec.SWl.Idx → EReal) (Bi : Spec.SBl.Idx → EReal)
    (x0 : Vec Ideal S512x128 .f32) (x1 : Vec Ideal S128x10 .f32) (x2 : Vec Ideal S1x10 .f32)
    (p : Fin 512) (q : Fin 10)
    (h0 : ∀ k : Fin 128, x0 (ix2 p k) = G (ix2 p k))
    (h1 : ∀ k : Fin 128, x1 (ix2 k q) = W (ix2 k q))
    (h2 : x2 (ix2 (0 : Fin 1) q) = Bi (ix2 (0 : Fin 1) q)) :
    k4_pay1 (F := Ideal) x0 x1 x2 (ix2 p q) = Spec.head G W Bi (ix2 p q) := by
  rw [pay4_apply, Spec.head_apply, h2, Finset.sum_congr rfl (fun k _ => by rw [h0 k, h1 k])]
  rfl

/-! ## Where each window's block sits at the point -/

/-- The index maps at the one point: every window at block (0, 0). -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled array read at the point: the whole array. -/
theorem read4_0 (G : S512x128.Idx → EReal) (t : Fin cfg4.N) (p : Fin 512) (k : Fin 128) :
    ((cfg4.win 0).blk t).view.read (Elt Ideal) G (ix2 p k) = G (ix2 p k) := by
  obtain ⟨e00, e01, -⟩ := idx_facts4 t
  show G (((cfg4.win 0).blk t).view.emb (ix2 p k)) = G (ix2 p k)
  refine congrArg G (funext fun a => Fin.ext ?_)
  match a with
  | ⟨0, _⟩ => show win4_0.index t (0 : Fin 2) * 512 + 1 * p.val = p.val; omega
  | ⟨1, _⟩ => show win4_0.index t (1 : Fin 2) * 128 + 1 * k.val = k.val; omega

/-- The weights read at the point: the whole matrix. -/
theorem read4_1 (W : S128x10.Idx → EReal) (t : Fin cfg4.N) (k : Fin 128) (q : Fin 10) :
    ((cfg4.win 1).blk t).view.read (Elt Ideal) W (ix2 k q) = W (ix2 k q) := by
  obtain ⟨-, -, e10, e11, -⟩ := idx_facts4 t
  show W (((cfg4.win 1).blk t).view.emb (ix2 k q)) = W (ix2 k q)
  refine congrArg W (funext fun a => Fin.ext ?_)
  match a with
  | ⟨0, _⟩ => show win4_1.index t (0 : Fin 2) * 128 + 1 * k.val = k.val; omega
  | ⟨1, _⟩ => show win4_1.index t (1 : Fin 2) * 10 + 1 * q.val = q.val; omega

/-- The bias read at the point: the whole row. -/
theorem read4_2 (Bi : S1x10.Idx → EReal) (t : Fin cfg4.N) (q : Fin 10) :
    ((cfg4.win 2).blk t).view.read (Elt Ideal) Bi (ix2 (0 : Fin 1) q) = Bi (ix2 (0 : Fin 1) q) := by
  obtain ⟨-, -, -, -, e20, e21, -⟩ := idx_facts4 t
  show Bi (((cfg4.win 2).blk t).view.emb (ix2 (0 : Fin 1) q)) = Bi (ix2 (0 : Fin 1) q)
  refine congrArg Bi (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 10 + 1 * q.val = q.val; omega

/-! ## What the point writes back, the cover, the array -/

section
variable (V : (c : Dev nD) → (b : Ref sig .tc) → Buf (Elt Ideal) ((c : Thread nD τ).loc b))

/-- What the point writes back is the whole of Spec.head of the three arrays as the region finds them. -/
theorem flushed4_eq (c : Dev nD) (t : Fin cfg4.N) :
    (dat4 (F := Ideal) V c).flushed 3 t
      = ((cfg4.win 3).blk t).view.read (Elt Ideal)
          (Spec.head (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4]
  simp only [View.ld_unit_zero (S := S512x128) hz4, View.ld_unit_zero (S := S128x10) hz4, View.ld_unit_zero (S := S1x10) hz4]
  obtain ⟨-, -, -, -, -, -, e30, e31⟩ := idx_facts4 t
  refine funext fun (j : S512x10.Idx) => ?_
  obtain ⟨p, q, rfl⟩ : ∃ (p : Fin 512) (q : Fin 10), j = ix2 p q := ⟨j 0, j 1, eq_ix2 j⟩
  have hemb : ((cfg4.win 3).blk t).view.emb (ix2 p q) = ix2 p q :=
    funext fun a => Fin.ext (by
      match a with
      | ⟨0, _⟩ => show win4_3.index t (0 : Fin 2) * 512 + 1 * p.val = p.val; omega
      | ⟨1, _⟩ => show win4_3.index t (1 : Fin 2) * 10 + 1 * q.val = q.val; omega)
  show k4_pay1 (iblk4 V c 0 t) (iblk4 V c 1 t) (iblk4 V c 2 t) (ix2 p q)
    = Spec.head (V c (Pipeline.arrRef spec4 0)) (V c (Pipeline.arrRef spec4 1)) (V c (Pipeline.arrRef spec4 2)) (((cfg4.win 3).blk t).view.emb (ix2 p q))
  rw [hemb]
  exact whole4 _ _ _ (iblk4 V c 0 t) (iblk4 V c 1 t) (iblk4 V c 2 t) p q
    (fun k => read4_0 (V c (Pipeline.arrRef spec4 0)) t p k)
    (fun k => read4_1 (V c (Pipeline.arrRef spec4 1)) t k q)
    (read4_2 (V c (Pipeline.arrRef spec4 2)) t q)

/-- An index of the array is in the point's block iff each coordinate is in the block's range on its axis. -/
theorem mem_blk4 (t : Fin cfg4.N) (i : S512x10.Idx) :
    i ∈ ((cfg4.win 3).blk t).view.set ↔ ∀ a : Fin 2, win4_3.index t a * S512x10.size a ≤ (i a).val ∧ (i a).val < win4_3.index t a * S512x10.size a + S512x10.size a := by
  show i ∈ ((View.whole main_v103).slice (win4_3.rect t)).set ↔ _
  rw [View.set_slice_whole, Rect.mem_set_unit]
  exact Iff.rfl

/-- Every index is in the one point's block. -/
theorem cover4 (i : S512x10.Idx) :
    ∃ t : Fin cfg4.N, (cfg4.win 3).flush t = true ∧ i ∈ ((cfg4.win 3).blk t).view.set := by
  have hi0 : (i 0).val < 512 := (i 0).isLt
  have hi1 : (i 1).val < 10 := (i 1).isLt
  obtain ⟨-, -, -, -, -, -, e30, e31⟩ := idx_facts4 t4_0
  refine ⟨t4_0, flush4_3 _, ?_⟩
  rw [mem_blk4]
  intro a
  match a with
  | ⟨0, _⟩ => show win4_3.index t4_0 (0 : Fin 2) * 512 ≤ (i 0).val ∧ (i 0).val < win4_3.index t4_0 (0 : Fin 2) * 512 + 512; omega
  | ⟨1, _⟩ => show win4_3.index t4_0 (1 : Fin 2) * 10 ≤ (i 1).val ∧ (i 1).val < win4_3.index t4_0 (1 : Fin 2) * 10 + 10; omega

/-- The array after the point: Spec.head of the three arrays the region found. -/
theorem final4 (c : Dev nD) :
    (dat4 (F := Ideal) V c).arrAt 3 cfg4.N
      = Spec.head (V c (Pipeline.arrRef spec4 0)) (V c (Pipeline.arrRef spec4 1)) (V c (Pipeline.arrRef spec4 2)) :=
  (dat4 (F := Ideal) V c).arrAt_eq_of_cover 3 _ (fun t _ => flushed4_eq V c t) cover4

end

end Cert.KernelIdeal.Blocks

end
-- ==== Proof.KLayers.lean ====
/-
  The kernel program, layer by layer.

  Each region applies the dense step to the array the host operations before it aggregated from the previous
  region's output, over the same edge data; so the array after the k-th region is the k-fold composition of
  "aggregate, then dense step" on the input.  After the fourth region the host takes the per-graph mean, and the
  last region applies the affine read-out to it.
-/
import proofs.«134745_j64080912056838_1_alg».proof.Proof.Gen.KernelIdeal.Frame
import proofs.«134745_j64080912056838_1_alg».proof.Proof.KCarry
import proofs.«134745_j64080912056838_1_alg».proof.Proof.KEdge
import proofs.«134745_j64080912056838_1_alg».proof.Proof.LibAfterResultsCat
import proofs.«134745_j64080912056838_1_alg».proof.Proof.Blocks0
import proofs.«134745_j64080912056838_1_alg».proof.Proof.Blocks1
import proofs.«134745_j64080912056838_1_alg».proof.Proof.Blocks2
import proofs.«134745_j64080912056838_1_alg».proof.Proof.Blocks3
import proofs.«134745_j64080912056838_1_alg».proof.Proof.Blocks4
import proofs.«134745_j64080912056838_1_alg».proof.Proof.Spec
import proofs.«134745_j64080912056838_1_alg».proof.Proof.Chain
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

open Cert.Chain Cert.KernelIdeal.Carry Cert.KernelIdeal.Edge

/-- The source words, destination words and weights of the edges, from the edge-index argument. -/
abbrev eS : IVec Cert.ReferenceIdeal.S1700000 32 := srcW (m ((c : Thread nD τ).loc main_arg1))
abbrev eD : IVec Cert.ReferenceIdeal.S1700000 32 := dstW (m ((c : Thread nD τ).loc main_arg1))
abbrev eN : FVec Ideal Cert.ReferenceIdeal.S1700000 .f32 := wts (m ((c : Thread nD τ).loc main_arg1))

/-- The node array after the first region. -/
def K1 : Cert.Spec.SN.Idx → EReal :=
  Cert.Spec.dense (aggOf (m ((c : Thread nD τ).loc main_arg0)) (eS m c) (eD m c) (eN m c)) (m ((c : Thread nD τ).loc main_arg3)) (shapeCast S1x128 (m ((c : Thread nD τ).loc main_arg4)) shapeCasts_S128_S1x128)
/-- The node array after the second region. -/
def K2 : Cert.Spec.SN.Idx → EReal :=
  Cert.Spec.dense (aggOf (K1 m c) (eS m c) (eD m c) (eN m c)) (m ((c : Thread nD τ).loc main_arg5)) (shapeCast S1x128 (m ((c : Thread nD τ).loc main_arg6)) shapeCasts_S128_S1x128)
/-- The node array after the third region. -/
def K3 : Cert.Spec.SN.Idx → EReal :=
  Cert.Spec.dense (aggOf (K2 m c) (eS m c) (eD m c) (eN m c)) (m ((c : Thread nD τ).loc main_arg7)) (shapeCast S1x128 (m ((c : Thread nD τ).loc main_arg8)) shapeCasts_S128_S1x128)
/-- The node array after the fourth region. -/
def K4 : Cert.Spec.SN.Idx → EReal :=
  Cert.Spec.dense (aggOf (K3 m c) (eS m c) (eD m c) (eN m c)) (m ((c : Thread nD τ).loc main_arg9)) (shapeCast S1x128 (m ((c : Thread nD τ).loc main_arg10)) shapeCasts_S128_S1x128)

theorem out1 : W4 m ρ c (Proc.devRef .tc main_v44) = K1 m c := by
  refine ((W4_arr m ρ c 3).trans (Cert.KernelIdeal.Blocks.final0 (V3 m ρ) c)).trans ?_
  show Cert.Spec.dense (W3 m ρ c (Proc.devRef .tc main_v42)) (W3 m ρ c (Proc.devRef .tc main_arg3)) (W3 m ρ c (Proc.devRef .tc main_v43)) = _
  rw [agg1, base_main_arg3, bias1]
  rfl

set_option maxHeartbeats 4000000 in
theorem agg2 : W5 m ρ c (Proc.devRef .tc main_v57) = aggOf (K1 m c) (eS m c) (eD m c) (eN m c) := by
  have e : W5 m ρ c (Proc.devRef .tc main_v57) = aggOf (W4 m ρ c (Proc.devRef .tc main_v44)) (W4 m ρ c (Proc.devRef .tc main_v3)) (W4 m ρ c (Proc.devRef .tc main_v6)) (W4 m ρ c (Proc.devRef .tc main_v29)) := by
    show StableHlo.after hostOps1 (W4 m ρ c) (Proc.devRef .tc main_v57) = _
    after_results_cat
    all_goals rfl
  rw [e, out1, keep4_main_v3, keep4_main_v6, keep4_main_v29, edge_src, edge_dst, edge_wts]

theorem w2 : W5 m ρ c (Proc.devRef .tc main_arg5) = m ((c : Thread nD τ).loc main_arg5) := by
  have e : W5 m ρ c (Proc.devRef .tc main_arg5) = W4 m ρ c (Proc.devRef .tc main_arg5) := by
    show StableHlo.after hostOps1 (W4 m ρ c) (Proc.devRef .tc main_arg5) = _
    after_results_cat
  rw [e, keep4_main_arg5, base_main_arg5]

set_option maxHeartbeats 4000000 in
theorem bias2 : W5 m ρ c (Proc.devRef .tc main_v58) = shapeCast S1x128 (m ((c : Thread nD τ).loc main_arg6)) shapeCasts_S128_S1x128 := by
  have e : W5 m ρ c (Proc.devRef .tc main_v58) = shapeCast S1x128 (W4 m ρ c (Proc.devRef .tc main_arg6)) shapeCasts_S128_S1x128 := by
    show StableHlo.after hostOps1 (W4 m ρ c) (Proc.devRef .tc main_v58) = _
    after_results_cat
    all_goals rfl
  rw [e, keep4_main_arg6, base_main_arg6]

theorem out2 : W6 m ρ c (Proc.devRef .tc main_v59) = K2 m c := by
  refine ((W6_arr m ρ c 3).trans (Cert.KernelIdeal.Blocks.final1 (V5 m ρ) c)).trans ?_
  show Cert.Spec.dense (W5 m ρ c (Proc.devRef .tc main_v57)) (W5 m ρ c (Proc.devRef .tc main_arg5)) (W5 m ρ c (Proc.devRef .tc main_v58)) = _
  rw [agg2, w2, bias2]
  rfl

set_option maxHeartbeats 4000000 in
theorem agg3 : W7 m ρ c (Proc.devRef .tc main_v72) = aggOf (K2 m c) (eS m c) (eD m c) (eN m c) := by
  have e : W7 m ρ c (Proc.devRef .tc main_v72) = aggOf (W6 m ρ c (Proc.devRef .tc main_v59)) (W6 m ρ c (Proc.devRef .tc main_v3)) (W6 m ρ c (Proc.devRef .tc main_v6)) (W6 m ρ c (Proc.devRef .tc main_v29)) := by
    show StableHlo.after hostOps2 (W6 m ρ c) (Proc.devRef .tc main_v72) = _
    after_results_cat
    all_goals rfl
  rw [e, out2, keep6_main_v3, keep6_main_v6, keep6_main_v29, edge_src, edge_dst, edge_wts]

theorem w3 : W7 m ρ c (Proc.devRef .tc main_arg7) = m ((c : Thread nD τ).loc main_arg7) := by
  have e : W7 m ρ c (Proc.devRef .tc main_arg7) = W6 m ρ c (Proc.devRef .tc main_arg7) := by
    show StableHlo.after hostOps2 (W6 m ρ c) (Proc.devRef .tc main_arg7) = _
    after_results_cat
  rw [e, keep6_main_arg7, base_main_arg7]

set_option maxHeartbeats 4000000 in
theorem bias3 : W7 m ρ c (Proc.devRef .tc main_v73) = shapeCast S1x128 (m ((c : Thread nD τ).loc main_arg8)) shapeCasts_S128_S1x128 := by
  have e : W7 m ρ c (Proc.devRef .tc main_v73) = shapeCast S1x128 (W6 m ρ c (Proc.devRef .tc main_arg8)) shapeCasts_S128_S1x128 := by
    show StableHlo.after hostOps2 (W6 m ρ c) (Proc.devRef .tc main_v73) = _
    after_results_cat
    all_goals rfl
  rw [e, keep6_main_arg8, base_main_arg8]

theorem out3 : W8 m ρ c (Proc.devRef .tc main_v74) = K3 m c := by
  refine ((W8_arr m ρ c 3).trans (Cert.KernelIdeal.Blocks.final2 (V7 m ρ) c)).trans ?_
  show Cert.Spec.dense (W7 m ρ c (Proc.devRef .tc main_v72)) (W7 m ρ c (Proc.devRef .tc main_arg7)) (W7 m ρ c (Proc.devRef .tc main_v73)) = _
  rw [agg3, w3, bias3]
  rfl

set_option maxHeartbeats 4000000 in
theorem agg4 : W9 m ρ c (Proc.devRef .tc main_v87) = aggOf (K3 m c) (eS m c) (eD m c) (eN m c) := by
  have e : W9 m ρ c (Proc.devRef .tc main_v87) = aggOf (W8 m ρ c (Proc.devRef .tc main_v74)) (W8 m ρ c (Proc.devRef .tc main_v3)) (W8 m ρ c (Proc.devRef .tc main_v6)) (W8 m ρ c (Proc.devRef .tc main_v29)) := by
    show StableHlo.after hostOps3 (W8 m ρ c) (Proc.devRef .tc main_v87) = _
    after_results_cat
    all_goals rfl
  rw [e, out3, keep8_main_v3, keep8_main_v6, keep8_main_v29, edge_src, edge_dst, edge_wts]

theorem w4 : W9 m ρ c (Proc.devRef .tc main_arg9) = m ((c : Thread nD τ).loc main_arg9) := by
  have e : W9 m ρ c (Proc.devRef .tc main_arg9) = W8 m ρ c (Proc.devRef .tc main_arg9) := by
    show StableHlo.after hostOps3 (W8 m ρ c) (Proc.devRef .tc main_arg9) = _
    after_results_cat
  rw [e, keep8_main_arg9, base_main_arg9]

set_option maxHeartbeats 4000000 in
theorem bias4 : W9 m ρ c (Proc.devRef .tc main_v88) = shapeCast S1x128 (m ((c : Thread nD τ).loc main_arg10)) shapeCasts_S128_S1x128 := by
  have e : W9 m ρ c (Proc.devRef .tc main_v88) = shapeCast S1x128 (W8 m ρ c (Proc.devRef .tc main_arg10)) shapeCasts_S128_S1x128 := by
    show StableHlo.after hostOps3 (W8 m ρ c) (Proc.devRef .tc main_v88) = _
    after_results_cat
    all_goals rfl
  rw [e, keep8_main_arg10, base_main_arg10]

theorem out4 : W10 m ρ c (Proc.devRef .tc main_v89) = K4 m c := by
  refine ((W10_arr m ρ c 3).trans (Cert.KernelIdeal.Blocks.final3 (V9 m ρ) c)).trans ?_
  show Cert.Spec.dense (W9 m ρ c (Proc.devRef .tc main_v87)) (W9 m ρ c (Proc.devRef .tc main_arg9)) (W9 m ρ c (Proc.devRef .tc main_v88)) = _
  rw [agg4, w4, bias4]
  rfl

set_option maxHeartbeats 4000000 in
theorem pool5 : W11 m ρ c (Proc.devRef .tc main_v101) = poolOf (K4 m c) (m ((c : Thread nD τ).loc main_arg2)) := by
  have e : W11 m ρ c (Proc.devRef .tc main_v101) = poolOf (W10 m ρ c (Proc.devRef .tc main_v89)) (W10 m ρ c (Proc.devRef .tc main_arg2)) := by
    show StableHlo.after hostOps4 (W10 m ρ c) (Proc.devRef .tc main_v101) = _
    after_results_cat
    all_goals rfl
  rw [e, out4, keep10_main_arg2, base_main_arg2]

theorem w5 : W11 m ρ c (Proc.devRef .tc main_arg11) = m ((c : Thread nD τ).loc main_arg11) := by
  have e : W11 m ρ c (Proc.devRef .tc main_arg11) = W10 m ρ c (Proc.devRef .tc main_arg11) := by
    show StableHlo.after hostOps4 (W10 m ρ c) (Proc.devRef .tc main_arg11) = _
    after_results_cat
  rw [e, keep10_main_arg11, base_main_arg11]

theorem bias5 : W11 m ρ c (Proc.devRef .tc main_v102) = shapeCast S1x10 (m ((c : Thread nD τ).loc main_arg12)) shapeCasts_S10_S1x10 := by
  have e : W11 m ρ c (Proc.devRef .tc main_v102) = shapeCast S1x10 (W10 m ρ c (Proc.devRef .tc main_arg12)) shapeCasts_S10_S1x10 := by
    show StableHlo.after hostOps4 (W10 m ρ c) (Proc.devRef .tc main_v102) = _
    after_results_cat
    all_goals rfl
  rw [e, keep10_main_arg12, base_main_arg12]

/-- The program's second result: the per-graph mean of the fourth region's output. -/
theorem result_mean : W12 m ρ c (Proc.devRef .tc main_v101) = poolOf (K4 m c) (m ((c : Thread nD τ).loc main_arg2)) :=
  ((W12_arr m ρ c 0).trans (((dat4 (V11 m ρ) c).arrAt_in 0 rfl _).trans (A_eq4 (V11 m ρ) c 0))).trans (pool5 m ρ c)

/-- The program's first result: the affine read-out of that mean. -/
theorem result_head : W12 m ρ c (Proc.devRef .tc main_v103)
    = Cert.Spec.head (poolOf (K4 m c) (m ((c : Thread nD τ).loc main_arg2))) (m ((c : Thread nD τ).loc main_arg11)) (shapeCast S1x10 (m ((c : Thread nD τ).loc main_arg12)) shapeCasts_S10_S1x10) := by
  refine ((W12_arr m ρ c 3).trans (Cert.KernelIdeal.Blocks.final4 (V11 m ρ) c)).trans ?_
  show Cert.Spec.head (W11 m ρ c (Proc.devRef .tc main_v101)) (W11 m ρ c (Proc.devRef .tc main_arg11)) (W11 m ρ c (Proc.devRef .tc main_v102)) = _
  rw [pool5, w5, bias5]

end Cert.KernelIdeal.Layers

end
-- ==== Proof.LibRowOps.lean ====
/-
  Row gathers and row scatter-adds of a two-axis array, read at one element.

  A gather of rows: operand [N, C], one start word per result row (start indices [E, 1]), result [E, C].  Result element
  (e, c) is the operand at (the start word of row e read signed and clamped into [0, N - 1], c).
  A scatter-add of rows: operand [N, C], one index word per update row, updates [E, C].  Update element (e, c) lands on
  operand element (n, c') exactly when the word of row e, read signed, is n and c = c' (a word out of range lands nowhere).
-/
import Idealize.ShloMosaic.PureOps.Ideal
import Idealize.ShloMosaic.Lib.ValueIdx

noncomputable section

open scoped BigOperators

namespace Cert.Gat.Rows

open Idealize.ShloMosaic Idealize.ShloMosaic.ValueIdx

section Gather
variable {α : Type} {N C E w : Nat}

/-- The dimension numbers of a row gather. -/
abbrev rowDims (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem not_one_mem : ¬ (1 : Fin 2) ∈ ([0] : List (Fin 2)) := by decide
theorem not_zero_mem_one : ¬ (0 : Fin 2) ∈ ([1] : List (Fin 2)) := by decide

/-- The operand row a result element reads: the clamped start word. -/
theorem opIdx0 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (0 : Fin 2) + (rowDims wf).batchCoord (ix2 e c) (0 : Fin 2) + (rowDims wf).offCoord (ix2 e c) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims wf).startIndexMap from List.mem_singleton.mpr rfl)]
  have hsi : (rowDims wf).siIdx (ix2 e c) ⟨List.idxOf (0 : Fin 2) (rowDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- The operand column a result element reads: its own. -/
theorem opIdx1 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (1 : Fin 2) + (rowDims wf).batchCoord (ix2 e c) (1 : Fin 2) + (rowDims wf).offCoord (ix2 e c) (1 : Fin 2)
      = c.val := by
  rw [GatherDims.batchCoord_eq_zero _ _ _ List.not_mem_nil]
  unfold GatherDims.start GatherDims.offCoord
  rw [dif_neg (show ¬ (1 : Fin 2) ∈ (rowDims wf).startIndexMap from not_one_mem),
    dif_pos (show (1 : Fin 2) ∈ (rowDims wf).sKept from
      (GatherDims.mem_sKept _ _).mpr ⟨not_one_mem, List.not_mem_nil⟩)]
  simp only [Nat.zero_add]
  rfl

/-- A row gather at (e, c): the operand at (the clamped start word of row e, c). -/
theorem gather_row_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ => exact opIdx0 wf idx e c
  | ⟨1, _⟩ => exact opIdx1 wf idx e c

end Gather

section Scatter
variable {N C E w : Nat}

/-- The dimension numbers of a row scatter. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (0 : Fin 2) = (idx (ix2 e ⟨0, Nat.one_pos⟩)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (1 : Fin 2) = 0 := by
  unfold ScatterDims.start
  rw [dif_neg (show ¬ (1 : Fin 2) ∈ (rowScatter wf).scatterDimsToOperandDims from not_one_mem)]

theorem window0 (wf : ScatterDims.WF ⟨2, ![N, C]⟩ ⟨2, ![E, 1]⟩ ⟨2, ![E, C]⟩ [1] [0] [0] 1) (e : Fin E) (c : Fin C) :
    (rowScatter wf).window (ix2 e c) (0 : Fin 2) = 0 := by
  unfold ScatterDims.window
  rw [dif_neg (show ¬ (0 : Fin 2) ∈ (rowScatter wf).sKept from by simp [ScatterDims.sKept, Shape.kept, List.mem_filter, List.mem_finRange])]

theorem window1 (wf : ScatterDims.WF ⟨2, ![N, C]⟩ ⟨2, ![E, 1]⟩ ⟨2, ![E, C]⟩ [1] [0] [0] 1) (e : Fin E) (c : Fin C) :
    (rowScatter wf).window (ix2 e c) (1 : Fin 2) = c.val := by
  unfold ScatterDims.window
  rw [dif_pos (show (1 : Fin 2) ∈ (rowScatter wf).sKept from by simp [ScatterDims.sKept, Shape.kept, List.mem_filter, List.mem_finRange])]
  rfl

/-- Where an update element lands. -/
theorem lands_iff (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter wf).resultIdx? (ix2 e c) idx = some (ix2 n c')
      ↔ (idx (ix2 e ⟨0, Nat.one_pos⟩)).toInt = (n.val : Int) ∧ c = c' := by
  unfold ScatterDims.resultIdx?
  have h0 := start0 wf idx e c
  have h1 := start1 wf idx e c
  have w0 := window0 wf e c
  have w1 := window1 wf e c
  constructor
  · intro h
    split at h
    · rename_i hall
      have hv := Option.some.inj h
      have e0 := congrArg (fun f => (f (0 : Fin 2) : Fin _).val) hv
      have e1 := congrArg (fun f => (f (1 : Fin 2) : Fin _).val) hv
      simp only [h0, h1, w0, w1] at e0 e1
      have hb := hall (0 : Fin 2)
      rw [h0, w0] at hb
      refine ⟨?_, Fin.ext ?_⟩
      · have : ((idx (ix2 e ⟨0, Nat.one_pos⟩)).toInt + ((0 : Nat) : Int)).toNat = n.val := e0
        omega
      · have : ((0 : Int) + ((c.val : Nat) : Int)).toNat = c'.val := e1
        omega
    · exact absurd h (by simp)
  · rintro ⟨hn, rfl⟩
    have hall : ∀ a : Fin 2, 0 ≤ (rowScatter wf).start (ix2 e c) idx a + (rowScatter wf).window (ix2 e c) a ∧
        (rowScatter wf).start (ix2 e c) idx a + (rowScatter wf).window (ix2 e c) a < (⟨2, ![N, C]⟩ : Shape).size a := by
      intro a
      match a with
      | ⟨0, _⟩ =>
        show 0 ≤ (rowScatter wf).start (ix2 e c) idx (0 : Fin 2) + (((rowScatter wf).window (ix2 e c) (0 : Fin 2) : Nat) : Int) ∧
          (rowScatter wf).start (ix2 e c) idx (0 : Fin 2) + (((rowScatter wf).window (ix2 e c) (0 : Fin 2) : Nat) : Int) < ((N : Nat) : Int)
        rw [h0, w0, hn]
        have := n.isLt
        omega
      | ⟨1, _⟩ =>
        show 0 ≤ (rowScatter wf).start (ix2 e c) idx (1 : Fin 2) + (((rowScatter wf).window (ix2 e c) (1 : Fin 2) : Nat) : Int) ∧
          (rowScatter wf).start (ix2 e c) idx (1 : Fin 2) + (((rowScatter wf).window (ix2 e c) (1 : Fin 2) : Nat) : Int) < ((C : Nat) : Int)
        rw [h1, w1]
        have := c.isLt
        omega
    rw [dif_pos hall]
    congr 1
    funext a
    refine Fin.ext ?_
    match a with
    | ⟨0, _⟩ =>
      show ((rowScatter wf).start (ix2 e c) idx (0 : Fin 2) + (rowScatter wf).window (ix2 e c) (0 : Fin 2)).toNat = n.val
      rw [h0, w0, hn]; omega
    | ⟨1, _⟩ =>
      show ((rowScatter wf).start (ix2 e c) idx (1 : Fin 2) + (rowScatter wf).window (ix2 e c) (1 : Fin 2)).toNat = c.val
      rw [h1, w1]; omega

/-- The sum over the update elements that land on (n, c') is the sum, over the rows whose word is n, of column c'. -/
theorem sum_lands {β : Type} [AddCommMonoid β]
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx → β) (n : Fin N) (c' : Fin C) :
    ∑ j ∈ Finset.univ.filter (fun j => (rowScatter wf).resultIdx? j idx = some (ix2 n c')), u j
      = ∑ e ∈ Finset.univ.filter (fun e : Fin E => (idx (ix2 e ⟨0, Nat.one_pos⟩)).toInt = (n.val : Int)), u (ix2 e c') := by
  symm
  refine Finset.sum_bij (fun e _ => ix2 e c') ?_ ?_ ?_ ?_
  · intro e he
    rw [Finset.mem_filter] at he ⊢
    exact ⟨Finset.mem_univ _, (lands_iff wf idx e c' n c').mpr ⟨he.2, rfl⟩⟩
  · intro e _ e' _ h
    have := congrFun h (0 : Fin 2)
    exact this
  · intro j hj
    rw [Finset.mem_filter] at hj
    rw [eq_ix2 j] at hj
    obtain ⟨hn, hc⟩ := (lands_iff wf idx (j 0) (j 1) n c').mp hj.2
    refine ⟨j 0, Finset.mem_filter.mpr ⟨Finset.mem_univ _, hn⟩, ?_⟩
    rw [← hc]; exact (eq_ix2 j).symm
  · intro e _; rfl

end Scatter

end Cert.Gat.Rows

end
-- ==== Proof.LibHitSet.lean ====
/-
  The scatter-add of the ideal instance, read at one element: the operand's element plus the sum of the updates that
  land on it.  The set of those updates is named once here so that the two programs' sums range over one set.
-/
import Idealize.ShloMosaic.PureOps.Ideal

noncomputable section

open scoped BigOperators

namespace Cert.Hits

open Idealize.ShloMosaic

/-- The updates that land on operand element i: those whose start word, read signed, plus window coordinate is i. -/
def hitSet {s si su : Shape} (d : ScatterDims s si su) {w : Nat} (idx : IVec si w) (i : s.Idx) : Finset su.Idx :=
  Finset.univ.filter (fun j => d.resultIdx? j idx = some i)

theorem mem_hitSet {s si su : Shape} (d : ScatterDims s si su) {w : Nat} (idx : IVec si w) (i : s.Idx) (j : su.Idx) :
    j ∈ hitSet d idx i ↔ d.resultIdx? j idx = some i := by
  unfold hitSet
  rw [Finset.mem_filter]
  exact ⟨fun h => h.2, fun h => ⟨Finset.mem_univ _, h⟩⟩

/-- The host's float scatter-add at element i. -/
theorem scatterAdd_at {s si su : Shape} (d : ScatterDims s si su) {w : Nat} (z : FVec Ideal s .f32) (idx : IVec si w)
    (u : FVec Ideal su .f32) (i : s.Idx) :
    Host.scatterAdd (F := Ideal) d z idx u i = z i + ∑ j ∈ hitSet d idx i, u j := rfl

end Cert.Hits

end
-- ==== Proof.AggAt.lean ====
/-
  The weighted neighbourhood sum read at one entry.

  Entry (r, j) of aggOf h s d n is the sum, over the edges e whose destination word d e (read signed) is r, of the
  source row's feature j — the row of h selected by the edge's normalised, clamped source word — times the edge's
  weight n e.  The set of those edges depends on d and r only, so it is the same set whatever array is aggregated.
-/
import proofs.«134745_j64080912056838_1_alg».proof.Proof.Chain
import proofs.«134745_j64080912056838_1_alg».proof.Proof.LibRowOps
import proofs.«134745_j64080912056838_1_alg».proof.Proof.LibHitSet
import Idealize.ShloMosaic.Lib.Pipeline.Value
import Idealize.ShloMosaic.Lib.ValueIdx

noncomputable section

open scoped BigOperators

namespace Cert.Chain

open Cert.ReferenceIdeal Cert.ReferenceIdeal.Facts₀ Cert.ReferenceIdeal.Facts Idealize.ShloMosaic Idealize.ShloMosaic.ValueIdx Cert.Gat.Rows

/-- The edges whose destination word is node r. -/
def edgesInto (d : IVec S1700000 32) (r : Fin 100000) : Finset (Fin 1700000) :=
  Finset.univ.filter (fun e : Fin 1700000 => (d (ix1 e)).toInt = (r.val : Int))

/-- The source row of edge e: its normalised source word, read signed and clamped into the node range. -/
def rowOf (s : IVec S1700000 32) (e : Fin 1700000) : Fin 100000 :=
  ⟨min (wrapIdx s (ix2 e ⟨0, Nat.one_pos⟩)).toInt.toNat (100000 - 1), by omega⟩

/-- A vector over the edges written as a one-column array, read at edge e. -/
theorem column_apply {α : Type} (d : S1700000.Idx → α) (e : Fin 1700000) :
    broadcastInDim S1700000x1 ![0] bcast_S1700000_S1700000x1_0 d (ix2 e ⟨0, Nat.one_pos⟩) = d (ix1 e) :=
  broadcastInDim_apply _ bcast_S1700000_S1700000x1_0 d _ (ix1 e) (fun a => match a with
    | ⟨0, _⟩ => by show e.val = if (1700000 : Nat) = 1 then 0 else e.val; rw [if_neg (by decide)])

/-- An edge weight copied along the features, read at (e, j). -/
theorem spread_apply (n : FVec Ideal S1700000 .f32) (e : Fin 1700000) (j : Fin 128) :
    spread n (ix2 e j) = n (ix1 e) := by
  unfold spread
  rw [broadcastInDim_apply _ bcast_S1700000x1_S1700000x128_0_1 _ (ix2 e j) (ix2 e ⟨0, Nat.one_pos⟩) (fun a => match a with
    | ⟨0, _⟩ => by show e.val = if (1700000 : Nat) = 1 then 0 else e.val; rw [if_neg (by decide)]
    | ⟨1, _⟩ => by show 0 = if (1 : Nat) = 1 then 0 else j.val; rw [if_pos rfl])]
  exact column_apply n e

/-- The all-zero array the sum starts from, read at any entry. -/
theorem zeros_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 _ i (fun a => a.elim0) (fun a => a.elim0)

/-- The weighted neighbourhood sum at entry (r, j). -/
theorem aggOf_apply (h : FVec Ideal S100000x128 .f32) (s d : IVec S1700000 32) (n : FVec Ideal S1700000 .f32)
    (r : Fin 100000) (j : Fin 128) :
    aggOf h s d n (ix2 r j)
      = Ideal.ofBits .f32 0x00000000#32 + ∑ e ∈ edgesInto d r, h (ix2 (rowOf s e) j) * n (ix1 e) := by
  unfold aggOf
  rw [Cert.Hits.scatterAdd_at, zeros_apply]
  refine congrArg (Ideal.ofBits .f32 0x00000000#32 + ·) ?_
  unfold Cert.Hits.hitSet
  rw [show scatter_S100000x128_S1700000x1_S1700000x128_1_0_0_1
      = rowScatter scatter_S100000x128_S1700000x1_S1700000x128_1_0_0_1_wf from rfl, sum_lands]
  have hset : (Finset.univ.filter fun x : Fin 1700000 =>
      (broadcastInDim S1700000x1 ![0] bcast_S1700000_S1700000x1_0 d (ix2 x ⟨0, Nat.one_pos⟩)).toInt = (r.val : Int))
      = edgesInto d r := by
    unfold edgesInto
    exact Finset.filter_congr (fun e _ => by rw [column_apply])
  rw [hset]
  refine Finset.sum_congr rfl fun e _ => ?_
  show (Host.gather gather_S100000x128_S1700000x1_S1700000x128_1_0_n_n_0_1_1128 h (wrapIdx s) (ix2 e j) : EReal)
      * spread n (ix2 e j) = _
  rw [show gather_S100000x128_S1700000x1_S1700000x128_1_0_n_n_0_1_1128
      = rowDims gather_S100000x128_S1700000x1_S1700000x128_1_0_n_n_0_1_1128_wf from rfl,
    gather_row_apply (by decide), spread_apply]
  rfl

end Cert.Chain

end
-- ==== Proof.LibExtRealLayer.lean ====
import Idealize.ShloMosaic.PureOps.Ideal

/-!
  Real-valued entries of a graph-convolution row on the extended reals.

  On `EReal` multiplication does not distribute over addition at the infinities, so two
  arrangements of the same row, `d · (Σ g + g₀)` with `g = h · d`, and
  `Σ h · (dγ · dδ) + h₀ · d²` with `dδ = d` on every summand, are compared only after every
  entry has been shown to be (the coercion of) a real number; the identity is then an identity
  of real numbers.
-/

noncomputable section

namespace Cert.ExtRealLayer

open scoped BigOperators
open Idealize.ShloMosaic

/-- An extended real that is the coercion of a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {υ : Type} (A : Finset υ) (f : υ → ℝ) :
    ((∑ j ∈ A, f j : ℝ) : EReal) = ∑ j ∈ A, (f j : EReal) := by
  classical
  refine Finset.induction_on A ?_ ?_
  · simp
  · intro a s ha ih
    rw [Finset.sum_insert ha, Finset.sum_insert ha, EReal.coe_add, ih]

/-- A finite sum of reals is real. -/
theorem IsReal.sum {υ : Type} (A : Finset υ) (f : υ → EReal) (h : ∀ j ∈ A, IsReal (f j)) :
    IsReal (∑ j ∈ A, f j) := by
  classical
  revert h
  refine Finset.induction_on A ?_ ?_
  · intro _
    rw [Finset.sum_empty]; exact isReal_zero
  · intro a s ha ih h
    rw [Finset.sum_insert ha]
    exact (h a (Finset.mem_insert_self a s)).add
      (ih fun j hj => h j (Finset.mem_insert_of_mem hj))

theorem IsReal.fsum {κ : Type} [Fintype κ] (f : κ → EReal) (h : ∀ k, IsReal (f k)) :
    IsReal (∑ k, f k) :=
  IsReal.sum Finset.univ f fun k _ => h k

/-- The all-zero single-precision pattern denotes `0`. -/
theorem ofBits_zero : Ideal.ofBits .f32 0x00000000#32 = 0 := by
  simp [Ideal.ofBits, Ideal.ieee]

/-- The single-precision pattern of `1.0` (exponent field 127, zero fraction) denotes `1`. -/
theorem ofBits_one : Ideal.ofBits .f32 0x3F800000#32 = 1 := by
  simp [Ideal.ofBits, Ideal.ieee, -EReal.coe_mul]; norm_num

/-- `1 + |A|`, written as `0 + Σ_{j ∈ A} 1 + 1`, is a real number `≥ 1`, so its reciprocal
    square root is the real `(√(1 + |A|))⁻¹`. -/
theorem isReal_rsqrt_count {υ : Type} (A : Finset υ) :
    IsReal (Ideal.rsqrt (((0 : EReal) + ∑ _j ∈ A, (1 : EReal)) + 1)) := by
  have hsum : (∑ _j ∈ A, (1 : EReal)) = (((A.card : ℝ)) : EReal) := by
    have h1 : (∑ _j ∈ A, (1 : EReal)) = ∑ _j ∈ A, (((1 : ℝ)) : EReal) := by
      simp only [EReal.coe_one]
    rw [h1, ← coe_sum]
    simp
  have harg : (((0 : EReal) + ∑ _j ∈ A, (1 : EReal)) + 1) = (((A.card : ℝ) + 1 : ℝ) : EReal) := by
    rw [hsum, zero_add, EReal.coe_add, EReal.coe_one]
  have hpos : (0 : ℝ) < (A.card : ℝ) + 1 := by positivity
  rw [harg, Ideal.rsqrt_coe, if_neg (not_lt.mpr hpos.le), if_neg hpos.ne']
  exact isReal_coe _

/-- The two arrangements of the row agree when every entry is real. The last summand `b` is
    added on both sides and may be any extended real. -/
theorem layer_eq {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) :
    (((0 : EReal) + ∑ j ∈ A, hγ j * dγ j) + h * d) * d + b
      = (((0 : EReal) + ∑ j ∈ A, hγ j * (dγ j * dδ j)) + h * (d * d)) + b := by
  classical
  obtain ⟨h', rfl⟩ := Hh0
  obtain ⟨d', rfl⟩ := Hd0
  -- real-valued representatives of the two families (arbitrary off `A`)
  let hr : υ → ℝ := fun j => if hj : j ∈ A then Classical.choose (Hh j hj) else 0
  let dr : υ → ℝ := fun j => if hj : j ∈ A then Classical.choose (Hd j hj) else 0
  have hhr : ∀ j ∈ A, hγ j = (hr j : EReal) := by
    intro j hj
    simp only [hr, dif_pos hj]
    exact Classical.choose_spec (Hh j hj)
  have hdr : ∀ j ∈ A, dγ j = (dr j : EReal) := by
    intro j hj
    simp only [dr, dif_pos hj]
    exact Classical.choose_spec (Hd j hj)
  have hL : (∑ j ∈ A, hγ j * dγ j) = ((∑ j ∈ A, hr j * dr j : ℝ) : EReal) := by
    rw [coe_sum]
    refine Finset.sum_congr rfl fun j hj => ?_
    rw [hhr j hj, hdr j hj, EReal.coe_mul]
  have hR : (∑ j ∈ A, hγ j * (dγ j * dδ j)) = ((∑ j ∈ A, hr j * (dr j * d') : ℝ) : EReal) := by
    rw [coe_sum]
    refine Finset.sum_congr rfl fun j hj => ?_
    rw [hhr j hj, hdr j hj, hδ j hj, EReal.coe_mul, EReal.coe_mul]
  congr 1
  rw [hL, hR, zero_add, zero_add, ← EReal.coe_mul, ← EReal.coe_mul, ← EReal.coe_mul,
    ← EReal.coe_add, ← EReal.coe_add, ← EReal.coe_mul]
  congr 1
  rw [add_mul, Finset.sum_mul]
  congr 1
  · refine Finset.sum_congr rfl fun j _ => ?_
    ring
  · ring

/-- The row in its second arrangement is real when every entry, and the last summand, is. -/
theorem layer_isReal {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) (Hb : IsReal b) :
    IsReal ((((0 : EReal) + ∑ j ∈ A, hγ j * (dγ j * dδ j)) + h * (d * d)) + b) := by
  refine ((isReal_zero.add (IsReal.sum A _ fun j hj => ?_)).add (Hh0.mul (Hd0.mul Hd0))).add Hb
  rw [hδ j hj]
  exact (Hh j hj).mul ((Hd j hj).mul Hd0)

end Cert.ExtRealLayer
-- ==== Proof.LibAggSwap.lean ====
/-
  One graph-convolution row on the extended reals, in two arrangements.

  For a node i let A be the set of edges ending at i, h e k the source node's feature k along edge e, nrm e the edge's
  weight and w k one column of the layer's matrix.  Aggregating first and multiplying by the matrix afterwards gives
      Σ_k (0 + Σ_{e ∈ A} h e k · nrm e) · w k,
  multiplying first and aggregating afterwards gives
      0 + Σ_{e ∈ A} (Σ_k h e k · w k) · nrm e.
  On the extended reals multiplication does not distribute over addition at the infinities, so the two are compared
  only when every entry is (the coercion of) a real number; the identity is then the exchange of two finite sums of
  real numbers.
-/
import proofs.«134745_j64080912056838_1_alg».proof.Proof.LibExtRealLayer

noncomputable section

open scoped BigOperators

namespace Cert.AggSwap

open Cert.ExtRealLayer

/-- Real representatives of a family that is real on a set. -/
theorem choose_real {α : Type} (p : α → Prop) (f : α → EReal) (H : ∀ a, p a → IsReal (f a)) :
    ∃ g : α → ℝ, ∀ a, p a → f a = (g a : EReal) := by
  classical
  refine ⟨fun a => if ha : p a then Classical.choose (H a ha) else 0, fun a ha => ?_⟩
  simp only [dif_pos ha]
  exact Classical.choose_spec (H a ha)

/-- Aggregate-then-multiply equals multiply-then-aggregate when every entry is real. -/
theorem agg_swap {ε κ : Type} [Fintype κ] (A : Finset ε) (h : ε → κ → EReal) (nrm : ε → EReal) (w : κ → EReal)
    (Hh : ∀ e ∈ A, ∀ k, IsReal (h e k)) (Hn : ∀ e ∈ A, IsReal (nrm e)) (Hw : ∀ k, IsReal (w k)) :
    ∑ k, ((0 : EReal) + ∑ e ∈ A, h e k * nrm e) * w k = (0 : EReal) + ∑ e ∈ A, (∑ k, h e k * w k) * nrm e := by
  classical
  obtain ⟨hr, hhr0⟩ := choose_real (fun p : ε × κ => p.1 ∈ A) (fun p => h p.1 p.2) (fun p hp => Hh p.1 hp p.2)
  have hhr : ∀ e ∈ A, ∀ k, h e k = (hr (e, k) : EReal) := fun e he k => hhr0 (e, k) he
  obtain ⟨nr, hnr⟩ := choose_real (fun e => e ∈ A) nrm Hn
  obtain ⟨wr, hwr0⟩ := choose_real (fun _ : κ => True) w (fun k _ => Hw k)
  have hwr : ∀ k, w k = (wr k : EReal) := fun k => hwr0 k trivial
  have hL : ∀ k, ((0 : EReal) + ∑ e ∈ A, h e k * nrm e) * w k
      = (((∑ e ∈ A, hr (e, k) * nr e) * wr k : ℝ) : EReal) := by
    intro k
    rw [zero_add, hwr k, EReal.coe_mul, coe_sum]
    congr 1
    refine Finset.sum_congr rfl fun e he => ?_
    rw [hhr e he k, hnr e he, EReal.coe_mul]
  have hR : ∀ e ∈ A, (∑ k, h e k * w k) * nrm e = (((∑ k, hr (e, k) * wr k) * nr e : ℝ) : EReal) := by
    intro e he
    rw [hnr e he, EReal.coe_mul, coe_sum]
    congr 1
    refine Finset.sum_congr rfl fun k _ => ?_
    rw [hhr e he k, hwr k, EReal.coe_mul]
  rw [Finset.sum_congr rfl (fun k _ => hL k), zero_add, Finset.sum_congr rfl hR, ← coe_sum, ← coe_sum]
  congr 1
  simp_rw [Finset.sum_mul]
  rw [Finset.sum_comm]
  refine Finset.sum_congr rfl fun e _ => Finset.sum_congr rfl fun k _ => ?_
  ring

/-- The multiply-then-aggregate row, with its bias and rectifier, is real when every entry is. -/
theorem row_isReal {ε κ : Type} [Fintype κ] (A : Finset ε) (h : ε → κ → EReal) (nrm : ε → EReal) (w : κ → EReal)
    (b z : EReal)
    (Hh : ∀ e ∈ A, ∀ k, IsReal (h e k)) (Hn : ∀ e ∈ A, IsReal (nrm e)) (Hw : ∀ k, IsReal (w k))
    (Hb : IsReal b) (Hz : IsReal z) :
    IsReal (max (((0 : EReal) + ∑ e ∈ A, (∑ k, h e k * w k) * nrm e) + b) z) := by
  refine IsReal.max ((isReal_zero.add (IsReal.sum A _ fun e he => ?_)).add Hb) Hz
  exact (IsReal.fsum _ fun k => (Hh e he k).mul (Hw k)).mul (Hn e he)

end Cert.AggSwap

end
-- ==== Proof.LayerAt.lean ====
/-
  One layer, in the two orders.

  The kernel aggregates the layer's input over each node's incoming edges and then applies the dense step (matrix,
  bias, rectifier); the reference multiplies by the matrix first, aggregates, adds the bias and rectifies.  Entry by
  entry the two are the two arrangements of one double sum over (edge, feature), equal once every entry of the input,
  of the matrix and of the edge weights is a real number; the result is then real again, which carries the
  comparison through the next layer.
-/
import proofs.«134745_j64080912056838_1_alg».proof.Proof.AggAt
import proofs.«134745_j64080912056838_1_alg».proof.Proof.Spec
import proofs.«134745_j64080912056838_1_alg».proof.Proof.LibAggSwap
import proofs.«134745_j64080912056838_1_alg».proof.Proof.ReadP
import Idealize.ShloMosaic.Lib.ValueLayout

noncomputable section

open scoped BigOperators

namespace Cert.Chain

open Cert.ReferenceIdeal Cert.ReferenceIdeal.Facts₀ Cert.ReferenceIdeal.Facts Cert.ReferenceIdeal.Read Idealize.ShloMosaic Idealize.ShloMosaic.ValueIdx Cert.ExtRealLayer

/-- The node-by-feature matrix product at entry (r, j). -/
theorem dot_apply (h : FVec Ideal S100000x128 .f32) (w : FVec Ideal S128x128 .f32) (r : Fin 100000) (j : Fin 128) :
    Host.dotGeneral dot_S100000x128_S128x128_S100000x128_1_0_0_1_n_n none h w (ix2 r j)
      = ∑ k : Fin 128, h (ix2 r k) * w (ix2 k j) := by
  refine (val_main_v15_apply h w (ix2 r j)).trans (Finset.sum_congr rfl fun k _ => ?_)
  have el : lidx_main_v15 (ix2 r j) k = ix2 r k :=
    funext fun a => Fin.ext (by match a with | ⟨0, _⟩ => rfl | ⟨1, _⟩ => rfl)
  have er : ridx_main_v15 (ix2 r j) k = ix2 k j :=
    funext fun a => Fin.ext (by match a with | ⟨0, _⟩ => rfl | ⟨1, _⟩ => rfl)
  rw [el, er]

/-- The bias row copied down the nodes, read at (r, j). -/
theorem bias_apply (b : FVec Ideal S128 .f32) (r : Fin 100000) (j : Fin 128) :
    broadcastInDim S100000x128 ![0, 1] bcast_S1x128_S100000x128_0_1 (broadcastInDim S1x128 ![1] bcast_S128_S1x128_1 b) (ix2 r j)
      = b (ix1 j) := by
  rw [broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ bcast_S128_S1x128_1 b _ (ix1 j) (fun a => match a with
    | ⟨0, _⟩ => by show j.val = if (128 : Nat) = 1 then 0 else j.val; rw [if_neg (by decide)])

/-- Aggregate-then-dense equals the reference's layer on real entries. -/
theorem dense_agg (h : FVec Ideal S100000x128 .f32) (w : FVec Ideal S128x128 .f32) (b : FVec Ideal S128 .f32)
    (s d : IVec S1700000 32) (n : FVec Ideal S1700000 .f32)
    (hsc : S128.ShapeCasts S1x128)
    (Hh : ∀ i, IsReal (h i)) (Hw : ∀ i, IsReal (w i)) (Hn : ∀ i, IsReal (n i)) :
    Cert.Spec.dense (aggOf h s d n) w (shapeCast S1x128 b hsc) = refLayer h w b s d n := by
  funext i
  obtain ⟨r, j, rfl⟩ : ∃ (r : Fin 100000) (j : Fin 128), i = ix2 r j := ⟨i 0, i 1, eq_ix2 i⟩
  have hswap := Cert.AggSwap.agg_swap (edgesInto d r) (fun e k => h (ix2 (rowOf s e) k)) (fun e => n (ix1 e))
    (fun k => w (ix2 k j)) (fun e _ k => Hh _) (fun e _ => Hn _) (fun k => Hw _)
  beta_reduce at hswap
  rw [Cert.Spec.dense_apply]
  unfold Cert.Spec.denseAt refLayer
  rw [maximumf_apply, addf_apply, zeros_apply, bias_apply, shapeCast_a_1a_apply]
  simp only [aggOf_apply, dot_apply, Cert.ExtRealLayer.ofBits_zero]
  rw [hswap]

/-- The reference's layer is real on real entries. -/
theorem refLayer_real (h : FVec Ideal S100000x128 .f32) (w : FVec Ideal S128x128 .f32) (b : FVec Ideal S128 .f32)
    (s d : IVec S1700000 32) (n : FVec Ideal S1700000 .f32)
    (Hh : ∀ i, IsReal (h i)) (Hw : ∀ i, IsReal (w i)) (Hb : ∀ i, IsReal (b i)) (Hn : ∀ i, IsReal (n i))
    (i : S100000x128.Idx) : IsReal (refLayer h w b s d n i) := by
  obtain ⟨r, j, rfl⟩ : ∃ (r : Fin 100000) (j : Fin 128), i = ix2 r j := ⟨i 0, i 1, eq_ix2 i⟩
  have hreal := Cert.AggSwap.row_isReal (edgesInto d r) (fun e k => h (ix2 (rowOf s e) k)) (fun e => n (ix1 e))
    (fun k => w (ix2 k j)) (b (ix1 j)) 0 (fun e _ k => Hh _) (fun e _ => Hn _) (fun k => Hw _) (Hb _) isReal_zero
  beta_reduce at hreal
  unfold refLayer
  rw [maximumf_apply, addf_apply, zeros_apply, bias_apply]
  simp only [aggOf_apply, dot_apply, Cert.ExtRealLayer.ofBits_zero]
  exact hreal

end Cert.Chain

end
-- ==== Proof.HeadAt.lean ====
/-
  The affine read-out, in the two spellings.

  The kernel's last region computes Σ_k g(r,k) · w(k,j) + b(0,j) with the bias as a one-row array; the reference
  writes the same sum as a matrix product and adds the bias copied down the rows.  The two are one expression entry
  by entry, whatever the entries are.
-/
import proofs.«134745_j64080912056838_1_alg».proof.Proof.Spec
import proofs.«134745_j64080912056838_1_alg».proof.Proof.ReadP
import Idealize.ShloMosaic.Lib.ValueLayout

noncomputable section

open scoped BigOperators

namespace Cert.Chain

open Cert.ReferenceIdeal Cert.ReferenceIdeal.Facts₀ Cert.ReferenceIdeal.Facts Cert.ReferenceIdeal.Read Idealize.ShloMosaic Idealize.ShloMosaic.ValueIdx

/-- The pooled-by-class matrix product at entry (r, j). -/
theorem headDot_apply (g : FVec Ideal S512x128 .f32) (w : FVec Ideal S128x10 .f32) (r : Fin 512) (j : Fin 10) :
    Host.dotGeneral dot_S512x128_S128x10_S512x10_1_0_0_1_n_n none g w (ix2 r j)
      = ∑ k : Fin 128, g (ix2 r k) * w (ix2 k j) := by
  simp only [Host.dotGeneral]
  rw [Ideal.dotGeneral_apply, ← Equiv.sum_comp (ValueIdx.contrEquiv1 dot_S512x128_S128x10_S512x10_1_0_0_1_n_n 128 rfl rfl).symm]
  refine Finset.sum_congr rfl fun k _ => ?_
  have hk := ValueIdx.contrEquiv1_symm_val dot_S512x128_S128x10_S512x10_1_0_0_1_n_n 128 rfl rfl k
  have el : dot_S512x128_S128x10_S512x10_1_0_0_1_n_n.lhsIdx (ix2 r j)
      ((ValueIdx.contrEquiv1 dot_S512x128_S128x10_S512x10_1_0_0_1_n_n 128 rfl rfl).symm k) = ix2 r k :=
    funext fun a => Fin.ext (by
      match a with
      | ⟨0, _⟩ => exact lhs_main_v159_0 _ _
      | ⟨1, _⟩ => exact (lhs_main_v159_1 _ _).trans hk)
  have er : dot_S512x128_S128x10_S512x10_1_0_0_1_n_n.rhsIdx (ix2 r j)
      ((ValueIdx.contrEquiv1 dot_S512x128_S128x10_S512x10_1_0_0_1_n_n 128 rfl rfl).symm k) = ix2 k j :=
    funext fun a => Fin.ext (by
      match a with
      | ⟨0, _⟩ => exact (rhs_main_v159_0 _ _).trans hk
      | ⟨1, _⟩ => exact rhs_main_v159_1 _ _)
  rw [el, er]

/-- The class bias copied down the graphs, read at (r, j). -/
theorem headBias_apply (b : FVec Ideal S10 .f32) (r : Fin 512) (j : Fin 10) :
    broadcastInDim S512x10 ![0, 1] bcast_S1x10_S512x10_0_1 (broadcastInDim S1x10 ![1] bcast_S10_S1x10_1 b) (ix2 r j)
      = b (ix1 j) := by
  rw [broadcastInDim_apply _ bcast_S1x10_S512x10_0_1 _ (ix2 r j) (ix2 (0 : Fin 1) j) (fun a => match a with
    | ⟨0, _⟩ => by show 0 = if (1 : Nat) = 1 then 0 else r.val; rw [if_pos rfl]
    | ⟨1, _⟩ => by show j.val = if (10 : Nat) = 1 then 0 else j.val; rw [if_neg (by decide)])]
  exact broadcastInDim_apply _ bcast_S10_S1x10_1 b _ (ix1 j) (fun a => match a with
    | ⟨0, _⟩ => by show j.val = if (10 : Nat) = 1 then 0 else j.val; rw [if_neg (by decide)])

/-- The read-out in the kernel's spelling is the reference's. -/
theorem head_eq (g : FVec Ideal S512x128 .f32) (w : FVec Ideal S128x10 .f32) (b : FVec Ideal S10 .f32)
    (hsc : S10.ShapeCasts S1x10) :
    Cert.Spec.head g w (shapeCast S1x10 b hsc)
      = addf (Host.dotGeneral dot_S512x128_S128x10_S512x10_1_0_0_1_n_n none g w)
          (broadcastInDim S512x10 ![0, 1] bcast_S1x10_S512x10_0_1 (broadcastInDim S1x10 ![1] bcast_S10_S1x10_1 b)) := by
  funext i
  obtain ⟨r, j, rfl⟩ : ∃ (r : Fin 512) (j : Fin 10), i = ix2 r j := ⟨i 0, i 1, eq_ix2 i⟩
  rw [Cert.Spec.head_apply]
  unfold Cert.Spec.headAt
  show (∑ k : Fin 128, g (ix2 r k) * w (ix2 k j)) + shapeCast S1x10 b hsc (ix2 (0 : Fin 1) j)
      = Host.dotGeneral dot_S512x128_S128x10_S512x10_1_0_0_1_n_n none g w (ix2 r j)
        + broadcastInDim S512x10 ![0, 1] bcast_S1x10_S512x10_0_1 (broadcastInDim S1x10 ![1] bcast_S10_S1x10_1 b) (ix2 r j)
  rw [headDot_apply, headBias_apply, shapeCast_a_1a_apply]

end Cert.Chain

end
-- ==== Proof.RealNorm.lean ====
import proofs.«134745_j64080912056838_1_alg».proof.Proof.ReadP
import proofs.«134745_j64080912056838_1_alg».proof.Proof.LibExtRealLayer
import proofs.«134745_j64080912056838_1_alg».proof.Proof.LibHitSet

/-!
  The edge weights are real numbers.

  The degree of a node is `d = 0 + Σ_{j ∈ A} 1` over the finite set `A` of edge slots that land on it, so
  it is the real number `|A| ≥ 0`. The node's normalizer is `d^(-1/2)` where `d > 0` and `0` otherwise:
  for `d > 0` the reciprocal square root of a positive real is real, and for `d = 0` the comparison
  `d > 0` fails and the value is `0`. An edge weight is the product of two normalizers, each read at
  a node chosen by the edge's index words, hence a product of two reals.
-/

noncomputable section

namespace Cert.RealNorm

open scoped BigOperators
open Idealize.ShloMosaic
open Cert.ReferenceIdeal Cert.ReferenceIdeal.Gen Cert.ReferenceIdeal.Read
open Cert.ExtRealLayer Cert.Hits

/-- `0 + Σ_{j ∈ A} 1` is the real number `|A|`. -/
theorem count_eq {υ : Type} (A : Finset υ) :
    ((0 : EReal) + ∑ _j ∈ A, (1 : EReal)) = (((A.card : ℝ)) : EReal) := by
  have h1 : (∑ _j ∈ A, (1 : EReal)) = ∑ _j ∈ A, (((1 : ℝ)) : EReal) := by
    simp only [EReal.coe_one]
  rw [zero_add, h1, ← coe_sum]
  simp

/-- With `d = 0 + Σ_{j ∈ A} 1`: the value `d^(-1/2)` if `d > 0`, else `0`, is real. If the comparison
    holds then `|A| > 0` and the reciprocal square root of a positive real is real; otherwise the
    value is `0`. -/
theorem isReal_select_rsqrt_count {υ : Type} (A : Finset υ) :
    IsReal (Scalar.select (Ideal.cmp .ogt ((0 : EReal) + ∑ _j ∈ A, (1 : EReal)) 0)
      (Ideal.rsqrt ((0 : EReal) + ∑ _j ∈ A, (1 : EReal))) (0 : EReal)) := by
  rw [count_eq]
  unfold Scalar.select
  split
  · rename_i hc
    have hpos : (0 : ℝ) < (A.card : ℝ) := by
      by_contra hn
      have h0 : (A.card : ℝ) = 0 := le_antisymm (not_lt.mp hn) (Nat.cast_nonneg _)
      rw [h0] at hc
      simp [Ideal.cmp] at hc
    rw [Ideal.rsqrt_coe, if_neg (not_lt.mpr hpos.le), if_neg hpos.ne']
    exact isReal_coe _
  · exact isReal_zero

/-- The degree of node `i`: zero plus one for every edge slot that lands on `i`. -/
theorem degree_eq (x1 : IVec S2x1600000 32) (i : S100000.Idx) :
    val_main_v10 (F := Ideal) x1 i
      = (0 : EReal) + ∑ _j ∈ hitSet scatter_S100000_S1700000x1_S1700000_n_0_0_1
          (val_main_v9 (F := Ideal) x1) i, (1 : EReal) := by
  have hz : val_main_v8 (F := Ideal) i = (0 : EReal) := by
    rw [val_main_v8_apply, val_main_cst_0_apply, Ideal.ofBits_def]
    exact ofBits_zero
  have ho : ∀ j : S1700000.Idx, val_main_v7 (F := Ideal) j = (1 : EReal) := by
    intro j
    rw [val_main_v7_apply, val_main_cst_apply, Ideal.ofBits_def]
    exact ofBits_one
  unfold val_main_v10
  refine (scatterAdd_at _ _ _ _ i).trans ?_
  rw [hz]
  exact congrArg (fun t : EReal => (0 : EReal) + t) (Finset.sum_congr rfl fun j _ => ho j)

/-- Every node's normalizer is real. -/
theorem real_v14 (x1 : IVec S2x1600000 32) (i : S100000.Idx) :
    IsReal (val_main_v14 (F := Ideal) x1 i) := by
  rw [val_main_v14_apply, val_main_v12_apply, val_main_v13_apply, val_main_call0_v1_apply,
    val_main_call0_v0_apply, val_main_cst_2_apply, val_main_v11_apply, val_main_cst_1_apply,
    degree_eq, Ideal.ofBits_def, Ideal.cmpf_def, Ideal.hostUnary_rsqrt_def, ofBits_zero]
  exact isReal_select_rsqrt_count _

/-- Every edge weight is real: it is the product of the normalizers of the edge's two end nodes. -/
theorem real_norm (x1 : IVec Cert.ReferenceIdeal.S2x1600000 32) (e : Cert.ReferenceIdeal.S1700000.Idx) :
    IsReal (val_main_v30 (F := Ideal) x1 e) := by
  rw [val_main_v30_apply]
  show IsReal
    (val_main_v14 (F := Ideal) x1
        (gather_S100000_S1700000x1_S1700000_n_0_n_n_0_1_1.operandIdx e (val_main_v21 (F := Ideal) x1))
      * val_main_v14 (F := Ideal) x1
        (gather_S100000_S1700000x1_S1700000_n_0_n_n_0_1_1.operandIdx e (val_main_v28 (F := Ideal) x1)))
  exact IsReal.mul (real_v14 x1 _) (real_v14 x1 _)

end Cert.RealNorm
-- ==== Proof.Bridge.lean ====
/-
  The two networks are one function of real arguments.

  The kernel's network is four times "aggregate, then dense step"; the reference's is four times "multiply, aggregate,
  add the bias, rectify".  Layer by layer the two agree on real entries and stay real, the edge weights being real
  whatever the edge words are; the per-graph mean is then one expression of equal arrays, and the read-out is one
  expression entry by entry.
-/
import proofs.«134745_j64080912056838_1_alg».proof.Proof.LayerAt
import proofs.«134745_j64080912056838_1_alg».proof.Proof.HeadAt
import proofs.«134745_j64080912056838_1_alg».proof.Proof.RefChain
import proofs.«134745_j64080912056838_1_alg».proof.Proof.RealNorm

noncomputable section

namespace Cert.Chain

open Cert.ReferenceIdeal Cert.ReferenceIdeal.Facts₀ Cert.ReferenceIdeal.Facts Cert.ReferenceIdeal.Read Idealize.ShloMosaic Cert.ExtRealLayer

/-- The kernel's four layers on given arrays. -/
def kerNet (x0 : FVec Ideal S100000x128 .f32) (x1 : IVec S2x1600000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (hsc : S128.ShapeCasts S1x128) : Cert.Spec.SN.Idx → EReal :=
  Cert.Spec.dense (aggOf
    (Cert.Spec.dense (aggOf
      (Cert.Spec.dense (aggOf
        (Cert.Spec.dense (aggOf x0 (srcW x1) (dstW x1) (wts x1)) x3 (shapeCast S1x128 x4 hsc))
        (srcW x1) (dstW x1) (wts x1)) x5 (shapeCast S1x128 x6 hsc))
      (srcW x1) (dstW x1) (wts x1)) x7 (shapeCast S1x128 x8 hsc))
    (srcW x1) (dstW x1) (wts x1)) x9 (shapeCast S1x128 x10 hsc)

/-- On real arguments the kernel's four layers are the reference's. -/
theorem net_eq (x0 : FVec Ideal S100000x128 .f32) (x1 : IVec S2x1600000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (hsc : S128.ShapeCasts S1x128)
    (H0 : ∀ i, IsReal (x0 i)) (H3 : ∀ i, IsReal (x3 i)) (H4 : ∀ i, IsReal (x4 i)) (H5 : ∀ i, IsReal (x5 i))
    (H6 : ∀ i, IsReal (x6 i)) (H7 : ∀ i, IsReal (x7 i)) (H8 : ∀ i, IsReal (x8 i)) (H9 : ∀ i, IsReal (x9 i)) :
    kerNet x0 x1 x3 x4 x5 x6 x7 x8 x9 x10 hsc = val_main_v146 (F := Ideal) x0 x1 x3 x4 x5 x6 x7 x8 x9 x10 := by
  have HN : ∀ e, IsReal (wts x1 e) := fun e => Cert.RealNorm.real_norm x1 e
  unfold kerNet
  rw [ref_layer4, ref_layer3, ref_layer2, ref_layer1]
  have r1 := refLayer_real x0 x3 x4 (srcW x1) (dstW x1) (wts x1) H0 H3 H4 HN
  have r2 := refLayer_real _ x5 x6 (srcW x1) (dstW x1) (wts x1) r1 H5 H6 HN
  have r3 := refLayer_real _ x7 x8 (srcW x1) (dstW x1) (wts x1) r2 H7 H8 HN
  rw [dense_agg x0 x3 x4 (srcW x1) (dstW x1) (wts x1) hsc H0 H3 HN,
    dense_agg _ x5 x6 (srcW x1) (dstW x1) (wts x1) hsc r1 H5 HN,
    dense_agg _ x7 x8 (srcW x1) (dstW x1) (wts x1) hsc r2 H7 HN,
    dense_agg _ x9 x10 (srcW x1) (dstW x1) (wts x1) hsc r3 H9 HN]

/-- The per-graph mean of the kernel's network is the reference's second result. -/
theorem mean_eq (x0 : FVec Ideal S100000x128 .f32) (x1 : IVec S2x1600000 32) (x2 : IVec S100000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (hsc : S128.ShapeCasts S1x128)
    (H0 : ∀ i, IsReal (x0 i)) (H3 : ∀ i, IsReal (x3 i)) (H4 : ∀ i, IsReal (x4 i)) (H5 : ∀ i, IsReal (x5 i))
    (H6 : ∀ i, IsReal (x6 i)) (H7 : ∀ i, IsReal (x7 i)) (H8 : ∀ i, IsReal (x8 i)) (H9 : ∀ i, IsReal (x9 i)) :
    poolOf (kerNet x0 x1 x3 x4 x5 x6 x7 x8 x9 x10 hsc) x2
      = val_main_v158 (F := Ideal) x0 x1 x2 x3 x4 x5 x6 x7 x8 x9 x10 := by
  rw [ref_pool, net_eq x0 x1 x3 x4 x5 x6 x7 x8 x9 x10 hsc H0 H3 H4 H5 H6 H7 H8 H9]

/-- The read-out of that mean is the reference's first result. -/
theorem head_res_eq (x0 : FVec Ideal S100000x128 .f32) (x1 : IVec S2x1600000 32) (x2 : IVec S100000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x128 .f32) (x10 : FVec Ideal S128 .f32) (x11 : FVec Ideal S128x10 .f32) (x12 : FVec Ideal S10 .f32) (hsc : S128.ShapeCasts S1x128) (hsc' : S10.ShapeCasts S1x10)
    (H0 : ∀ i, IsReal (x0 i)) (H3 : ∀ i, IsReal (x3 i)) (H4 : ∀ i, IsReal (x4 i)) (H5 : ∀ i, IsReal (x5 i))
    (H6 : ∀ i, IsReal (x6 i)) (H7 : ∀ i, IsReal (x7 i)) (H8 : ∀ i, IsReal (x8 i)) (H9 : ∀ i, IsReal (x9 i)) :
    Cert.Spec.head (poolOf (kerNet x0 x1 x3 x4 x5 x6 x7 x8 x9 x10 hsc) x2) x11 (shapeCast S1x10 x12 hsc')
      = val_main_v162 (F := Ideal) x0 x1 x2 x3 x4 x5 x6 x7 x8 x9 x10 x11 x12 := by
  rw [ref_head, head_eq, mean_eq x0 x1 x2 x3 x4 x5 x6 x7 x8 x9 x10 hsc H0 H3 H4 H5 H6 H7 H8 H9]

end Cert.Chain

end
-- ==== Proof.FiniteArgs.lean ====
import proofs.«134745_j64080912056838_1_alg».proof.Pre_finite_inputs
import proofs.«134745_j64080912056838_1_alg».proof.Proof.LibExtRealLayer
import Idealize.ShloMosaic.PureOps.Ideal
import Idealize.ShloMosaic.Lib.IdealHost
import Idealize.ShloMosaic.Lib.ReduceAll

/-!
  From the finiteness precondition to real-valued arguments.

  The precondition is a conjunction, one conjunct per floating-point argument `x`, of
  "every entry of `|x|` is strictly below `+∞`". On the extended reals `|x| = max x (-x)`, and
  `max x (-x) < ⊤` excludes both `x = ⊤` and `x = ⊥` (whose negation is `⊤`), so every entry is the
  coercion of a real number.
-/

noncomputable section

namespace Cert.FiniteArgs

open Idealize.ShloMosaic
open Cert.Pre_finite_inputs
open Cert.ExtRealLayer

/-- The rank-0 shape has exactly one index. -/
instance : Subsingleton S_.Idx := ⟨fun a b => funext fun d => d.elim0⟩

/-- The single-precision pattern with all-ones exponent and zero fraction denotes `+∞`. -/
theorem ofBits_inf : Ideal.ofBits .f32 0x7F800000#32 = (⊤ : EReal) := by
  simp [Ideal.ofBits, Ideal.ieee]

/-- An extended real whose absolute value `max x (-x)` is strictly below `+∞` is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hc
    simp [Ideal.cmp, hc] at h
  induction x using EReal.rec with
  | bot => simp at hlt
  | coe r => exact ⟨r, rfl⟩
  | top => simp at hlt

/-- A conjunction of one-bit words read at an index. -/
theorem andi_apply_eq_one {s : Shape} (a b : IVec s 1) (j : s.Idx) :
    andi a b j = 1#1 ↔ a j = 1#1 ∧ b j = 1#1 := IntOp.andi_eq_one

/-- If the conjunction over all entries of `|x| < +∞` holds, every entry of `x` is real. -/
theorem real_of_all {s : Shape} {axes : List (Fin s.rank)} (x : FVec Ideal s .f32)
    (hb : S_.BroadcastsInDim s (![] : Fin 0 → Fin s.rank)) (hr : s.ReducesTo axes S_)
    (hu : 0 < S_.numel)
    (e : Host.reduce IntOp.andi
          (cmpf .olt (Host.absf x)
            (broadcastInDim s ![] hb (constant (F := Ideal) S_ .f32 0x7F800000#32)))
          (constantI S_ 1 1#1) hr hu ValueIdx.ix0 = 1#1) (i : s.Idx) : IsReal (x i) := by
  have hi := Host.reduce_andi_all _ _ hr hu ValueIdx.ix0 e i
  exact isReal_of_abs_lt_inf (x i) hi

/-- The precondition makes every entry of every floating-point argument a real number. -/
theorem real_of_pre [Facts]
    (x0 : FVec Ideal S100000x128 .f32) (x1 : IVec S2x1600000 32) (x2 : IVec S100000 32)
    (x3 : FVec Ideal S128x128 .f32) (x4 : FVec Ideal S128 .f32) (x5 : FVec Ideal S128x128 .f32)
    (x6 : FVec Ideal S128 .f32) (x7 : FVec Ideal S128x128 .f32) (x8 : FVec Ideal S128 .f32)
    (x9 : FVec Ideal S128x128 .f32) (x10 : FVec Ideal S128 .f32) (x11 : FVec Ideal S128x10 .f32)
    (x12 : FVec Ideal S10 .f32)
    (h : Cert.Pre_finite_inputs.fn (F := Ideal) x0 x1 x2 x3 x4 x5 x6 x7 x8 x9 x10 x11 x12
          = fun _ => 1#1) :
    (∀ i, IsReal (x0 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) ∧ (∀ i, IsReal (x12 i)) := by
  have h0 := congrFun h ValueIdx.ix0
  dsimp only [fn, fn_part1, fn_part2, fn_part3] at h0
  simp only [andi_apply_eq_one] at h0
  obtain ⟨⟨⟨⟨⟨⟨⟨⟨⟨⟨e0, e3⟩, e4⟩, e5⟩, e6⟩, e7⟩, e8⟩, e9⟩, e10⟩, e11⟩, e12⟩ := h0
  exact ⟨real_of_all x0 _ _ _ e0, real_of_all x3 _ _ _ e3, real_of_all x4 _ _ _ e4,
    real_of_all x5 _ _ _ e5, real_of_all x6 _ _ _ e6, real_of_all x7 _ _ _ e7,
    real_of_all x8 _ _ _ e8, real_of_all x9 _ _ _ e9, real_of_all x10 _ _ _ e10,
    real_of_all x11 _ _ _ e11, real_of_all x12 _ _ _ e12⟩

end Cert.FiniteArgs
-- ==== Proof.lean ====
/-
  The certificate: a four-layer graph convolution with mean pooling and an affine read-out, its dense steps run as
  tiled kernels, against the plain reference.

  The kernel aggregates each layer's input over a node's incoming edges (weighted by the two end nodes' inverse
  square-root degrees) and then applies the dense step — matrix, bias, rectifier — block of rows by block of rows;
  the reference multiplies by the matrix first and aggregates afterwards.  Over the extended reals the two orders
  agree because, the float arguments being finite, every entry in sight is a real number: the edge weights are real
  whatever the integer edge words are (a degree is a count, its inverse square root is taken only where the count is
  positive), and each layer maps real entries to real entries, so the exchange of the two finite sums is an identity
  of real numbers at every layer.  The per-graph mean and the read-out are the same expressions on both sides.

  The two kernel programs' frames are the generated ones; the reference's frame is its run with the results dropped.
  Nothing was rewritten by the idealization, so the preservation claim is trivial.
-/
import proofs.«134745_j64080912056838_1_alg».proof.Defs
import proofs.«134745_j64080912056838_1_alg».proof.Proof.Gen.Kernel
import proofs.«134745_j64080912056838_1_alg».proof.Proof.Gen.Kernel.Skeleton
import proofs.«134745_j64080912056838_1_alg».proof.Proof.Gen.Kernel.Launch
import proofs.«134745_j64080912056838_1_alg».proof.Proof.Gen.Kernel.Points
import proofs.«134745_j64080912056838_1_alg».proof.Proof.Gen.Kernel.Frame
import proofs.«134745_j64080912056838_1_alg».proof.Proof.Gen.KernelIdeal
import proofs.«134745_j64080912056838_1_alg».proof.Proof.Gen.KernelIdeal.Skeleton
import proofs.«134745_j64080912056838_1_alg».proof.Proof.Gen.KernelIdeal.Launch
import proofs.«134745_j64080912056838_1_alg».proof.Proof.Gen.KernelIdeal.Points
import proofs.«134745_j64080912056838_1_alg».proof.Proof.Gen.KernelIdeal.Frame
import proofs.«134745_j64080912056838_1_alg».proof.Proof.Gen.ReferenceIdeal
import proofs.«134745_j64080912056838_1_alg».proof.Proof.Gen.Pre_finite_inputs
import proofs.«134745_j64080912056838_1_alg».proof.Proof.RunP
import proofs.«134745_j64080912056838_1_alg».proof.Proof.ReadP
import proofs.«134745_j64080912056838_1_alg».proof.Proof.KRun
import proofs.«134745_j64080912056838_1_alg».proof.Proof.KLayers
import proofs.«134745_j64080912056838_1_alg».proof.Proof.Bridge
import proofs.«134745_j64080912056838_1_alg».proof.Proof.FiniteArgs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the read-out of the per-graph mean of the four-layer network, and with that mean. -/
theorem algebraic : Cert.algebraic_KernelIdeal_ReferenceIdeal := by
  intro m ρ m' ρ' hpre hagree
  refine ⟨fun c => Cert.Spec.head (Cert.Chain.poolOf (Cert.KernelIdeal.Layers.K4 m c) (m ((c.tc : Thread Cert.KernelIdeal.nD Cert.KernelIdeal.τ).loc Cert.KernelIdeal.main_arg2)))
        (m ((c.tc : Thread Cert.KernelIdeal.nD Cert.KernelIdeal.τ).loc Cert.KernelIdeal.main_arg11)) (shapeCast Cert.KernelIdeal.S1x10 (m ((c.tc : Thread Cert.KernelIdeal.nD Cert.KernelIdeal.τ).loc Cert.KernelIdeal.main_arg12)) Cert.KernelIdeal.Gen.shapeCasts_S10_S1x10),
      fun c => Cert.Chain.poolOf (Cert.KernelIdeal.Layers.K4 m c) (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Layers.result_head m ρ c),
        (h c).2.1.trans (Cert.KernelIdeal.Layers.result_mean m ρ c), (h c).2.2⟩)
      (Cert.KernelIdeal.Run.run_results (F := Ideal) m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · obtain ⟨H0, H3, H4, H5, H6, H7, H8, H9, H10, H11, H12⟩ :=
        Cert.FiniteArgs.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
      rw [Cert.ReferenceIdeal.Read.val_main_v162_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
      exact (Cert.Chain.head_res_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
        Cert.KernelIdeal.Gen.shapeCasts_S128_S1x128 Cert.KernelIdeal.Gen.shapeCasts_S10_S1x10 H0 H3 H4 H5 H6 H7 H8 H9).symm
    · obtain ⟨H0, H3, H4, H5, H6, H7, H8, H9, H10, H11, H12⟩ :=
        Cert.FiniteArgs.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
      rw [Cert.ReferenceIdeal.Read.val_main_v158_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
      exact (Cert.Chain.mean_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        Cert.KernelIdeal.Gen.shapeCasts_S128_S1x128 H0 H3 H4 H5 H6 H7 H8 H9).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
